-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S256x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) (main_arg6 : FVec F S256x128 .f32) (main_arg7 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S256x256 : Shape := ⟨2, ![256, 256]⟩
abbrev S1x256 : Shape := ⟨2, ![1, 256]⟩
abbrev S50000x256 : Shape := ⟨2, ![50000, 256]⟩
abbrev S5000x512 : Shape := ⟨2, ![5000, 512]⟩
abbrev S5000x1 : Shape := ⟨2, ![5000, 1]⟩
abbrev S5000x256 : Shape := ⟨2, ![5000, 256]⟩
abbrev S850000x256 : Shape := ⟨2, ![850000, 256]⟩
abbrev S50000x128 : Shape := ⟨2, ![50000, 128]⟩
abbrev S1x50000x128 : Shape := ⟨3, ![1, 50000, 128]⟩
abbrev S2x50000x128 : Shape := ⟨3, ![2, 50000, 128]⟩

abbrev nBuf : Space → Nat
  | .hbm => 73
  | .vmem => 15
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S512x256, .bf16⟩
  | .hbm, ⟨31, _⟩ => ⟨S256x256, .f32⟩
  | .hbm, ⟨32, _⟩ => ⟨S256x256, .bf16⟩
  | .hbm, ⟨33, _⟩ => ⟨S256, .f32⟩
  | .hbm, ⟨34, _⟩ => ⟨S1x256, .f32⟩
  | .hbm, ⟨35, _⟩ => ⟨S50000x256, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x256, .f32⟩
  | .hbm, ⟨45, _⟩ => ⟨S_, .f32⟩
  | .hbm, ⟨46, _⟩ => ⟨S50000x256, .f32⟩
  | .hbm, ⟨47, _⟩ => ⟨S850000x1, .i32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S50000x128, .f32⟩
  | .hbm, ⟨69, _⟩ => ⟨S50000x128, .f32⟩
  | .hbm, ⟨70, _⟩ => ⟨S1x50000x128, .f32⟩
  | .hbm, ⟨71, _⟩ => ⟨S1x50000x128, .f32⟩
  | .hbm, ⟨72, _⟩ => ⟨S2x50000x128, .f32⟩
  | .local _ .vmem, ⟨0, _⟩ => ⟨S5000x512, .f32⟩
  | .local _ .vmem, ⟨1, _⟩ => ⟨S5000x512, .f32⟩
  | .local _ .vmem, ⟨2, _⟩ => ⟨S512x256, .bf16⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S256x256, .bf16⟩
  | .local _ .vmem, ⟨10, _⟩ => ⟨S5000x1, .f32⟩
  | .local _ .vmem, ⟨11, _⟩ => ⟨S5000x1, .f32⟩
  | .local _ .vmem, ⟨12, _⟩ => ⟨S1x256, .f32⟩
  | .local _ .vmem, ⟨13, _⟩ => ⟨S5000x256, .f32⟩
  | .local _ .vmem, ⟨14, _⟩ => ⟨S5000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bitsLt_bf16_f32 : FTy.bits .bf16 < FTy.bits .f32
  concatenates_S256x128_S256x128_S256x256_d1 : Shape.Concatenates [S256x128, S256x128] S256x256 1
  concatenates_S128_S128_S256_d0 : Shape.Concatenates [S128, S128] S256 0
  shapeCasts_S256_S1x256 : S256.ShapeCasts S1x256
  inb_S5000x512_S5000x512_0_0 : ∀ a, (![0, 0] : Fin 2 → Nat) a + S5000x512.size a ≤ S5000x512.size a
  h_S5000x512 : 0 < S5000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S50000x256_S50000x128_0_0 : S50000x256.Slices ![0, 0] S50000x128
  slices_S50000x256_S50000x128_0_128 : S50000x256.Slices ![0, 128] S50000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  scatter_S50000_S850000x1_S850000_n_0_0_1_wf : ScatterDims.WF S50000 S850000x1 S850000 [] [0] [0] 1
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 180
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S256x128, .f32⟩
  | 7 => ⟨S128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x256, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x128, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S_, .f32⟩
  | 126 => ⟨S850000, .f32⟩
  | 127 => ⟨S_, .f32⟩
  | _ => ⟨S50000x512, .f32⟩

abbrev hbmTy0_1 (i : Nat) : BufTy := match i % 128 with
  | 0 => ⟨S50000, .f32⟩
  | 1 => ⟨S850000x1, .i32⟩
  | 2 => ⟨S50000, .f32⟩
  | 3 => ⟨S_, .f32⟩
  | 4 => ⟨S50000, .f32⟩
  | 5 => ⟨S50000, .i1⟩
  | 6 => ⟨S50000, .f32⟩
  | 7 => ⟨S_, .f32⟩
  | 8 => ⟨S_, .f32⟩
  | 9 => ⟨S50000, .f32⟩
  | 10 => ⟨S50000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000, .f32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x128, .f32⟩
  | 39 => ⟨S850000x1, .f32⟩
  | 40 => ⟨S850000x128, .f32⟩
  | 41 => ⟨S850000x128, .f32⟩
  | 42 => ⟨S_, .f32⟩
  | 43 => ⟨S50000x128, .f32⟩
  | 44 => ⟨S850000x1, .i32⟩
  | 45 => ⟨S50000x128, .f32⟩
  | 46 => ⟨S1x128, .f32⟩
  | 47 => ⟨S50000x128, .f32⟩
  | 48 => ⟨S50000x128, .f32⟩
  | 49 => ⟨S1x50000x128, .f32⟩
  | 50 => ⟨S1x50000x128, .f32⟩
  | 51 => ⟨S2x50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_22 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_23 : Ref sig .tc := ⟨.hbm, 135, rfl⟩
abbrev main_call3_v0 : Ref sig .tc := ⟨.hbm, 136, rfl⟩
abbrev main_call3_v1 : Ref sig .tc := ⟨.hbm, 137, rfl⟩
abbrev main_v96 : Ref sig .tc := ⟨.hbm, 138, rfl⟩
abbrev main_c_24 : Ref sig .tc := ⟨.hbm, 139, rfl⟩
abbrev main_v97 : Ref sig .tc := ⟨.hbm, 140, rfl⟩
abbrev main_v98 : Ref sig .tc := ⟨.hbm, 141, rfl⟩
abbrev main_c_25 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_26 : Ref sig .tc := ⟨.hbm, 148, rfl⟩
abbrev main_v104 : Ref sig .tc := ⟨.hbm, 149, rfl⟩
abbrev main_v105 : Ref sig .tc := ⟨.hbm, 150, rfl⟩
abbrev main_c_27 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_28 : Ref sig .tc := ⟨.hbm, 158, rfl⟩
abbrev main_v112 : Ref sig .tc := ⟨.hbm, 159, rfl⟩
abbrev main_v113 : Ref sig .tc := ⟨.hbm, 160, rfl⟩
abbrev main_c_29 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_30 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefTerms.lean ====
/-
  The reference program's result, piece by piece.

  The reference is a two-layer graph convolution with symmetric normalisation. From the edge list it forms the source
  and target index arrays (the given edges followed by one self-loop per node), counts each node's incoming edges, takes
  the node factor 1/sqrt(degree) (zero where the degree is zero) and gives every edge the weight factor(source) ·
  factor(target). One convolution of a table P gathers P's rows at the sources, scales each by its edge's weight, sums
  them into the targets' rows and adds a bias row. The hidden layer is the convolution of x·W1, clipped at zero; the two
  results are the convolutions of hidden·W_mu and hidden·W_ls, stacked.

  Here each piece is named, as the operations the program performs.
-/
import proofs.«164936_j60593398612125_2_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem

/-- The sources: row 0 of the edge list, then every node once. -/
def srcIdx (e : IVec S2x800000 32) : IVec S850000 32 :=
  (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)

/-- The targets: row 1 of the edge list, then every node once. -/
def dstIdx (e : IVec S2x800000 32) : IVec S850000 32 :=
  (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)

/-- A negative index counted from the end: 50000 is added to it. -/
def wrapIdx (v : IVec S850000 32) : IVec S850000 32 :=
  (select (cmpi .slt v (broadcastInDim S850000 ![] bcast_S_S850000 (constantI S_ 32 0#32))) (addi v (broadcastInDim S850000 ![] bcast_S_S850000 (constantI S_ 32 50000#32))) v)

/-- An index array laid as one column. -/
def asCol (v : IVec S850000 32) : IVec S850000x1 32 :=
  (broadcastInDim S850000x1 ![0] bcast_S850000_S850000x1_0 v)

/-- Each node's number of incoming edges: ones summed into zeros at the targets. -/
def degree (e : IVec S2x800000 32) : FVec Ideal S50000 .f32 :=
  Host.scatterAdd scatter_S50000_S850000x1_S850000_n_0_0_1 (broadcastInDim S50000 ![] bcast_S_S50000 (constant S_ .f32 0x00000000#32)) (asCol (dstIdx e)) (broadcastInDim S850000 ![] bcast_S_S850000 (constant S_ .f32 0x3F800000#32))

/-- Each node's factor: the inverse square root of its degree where that is positive, zero elsewhere. -/
def nodeFactor (e : IVec S2x800000 32) : FVec Ideal S50000 .f32 :=
  select (cmpf (F := Ideal) .ogt (degree e) (broadcastInDim S50000 ![] bcast_S_S50000 (constant S_ .f32 0x00000000#32))) (Host.rsqrt (degree e)) (broadcastInDim S50000 ![] bcast_S_S50000 (id (constant S_ .f32 0x00000000#32)))

/-- Each edge's weight: its source's factor times its target's. -/
def edgeNorm (e : IVec S2x800000 32) : FVec Ideal S850000 .f32 :=
  mulf (Host.gather gather_S50000_S850000x1_S850000_n_0_n_n_0_1_1 (nodeFactor e) (asCol (wrapIdx (srcIdx e)))) (Host.gather gather_S50000_S850000x1_S850000_n_0_n_n_0_1_1 (nodeFactor e) (asCol (wrapIdx (dstIdx e))))

/-- One convolution of a table of 256 columns. -/
def conv256 (P : FVec Ideal S50000x256 .f32) (e : IVec S2x800000 32) (b : FVec Ideal S256 .f32) : FVec Ideal S50000x256 .f32 :=
  addf (Host.scatterAdd scatter_S50000x256_S850000x1_S850000x256_1_0_0_1 (broadcastInDim S50000x256 ![] bcast_S_S50000x256 (constant S_ .f32 0x00000000#32)) (asCol (dstIdx e)) (mulf (Host.gather gather_S50000x256_S850000x1_S850000x256_1_0_n_n_0_1_1256 P (asCol (wrapIdx (srcIdx e)))) (broadcastInDim S850000x256 ![0, 1] bcast_S850000x1_S850000x256_0_1 (broadcastInDim S850000x1 ![0] bcast_S850000_S850000x1_0 (edgeNorm e))))) (broadcastInDim S50000x256 ![0, 1] bcast_S1x256_S50000x256_0_1 (broadcastInDim S1x256 ![1] bcast_S256_S1x256_1 b))

/-- One convolution of a table of 128 columns. -/
def conv128 (P : FVec Ideal S50000x128 .f32) (e : IVec S2x800000 32) (b : FVec Ideal S128 .f32) : FVec Ideal S50000x128 .f32 :=
  addf (Host.scatterAdd scatter_S50000x128_S850000x1_S850000x128_1_0_0_1 (broadcastInDim S50000x128 ![] bcast_S_S50000x128 (constant S_ .f32 0x00000000#32)) (asCol (dstIdx e)) (mulf (Host.gather gather_S50000x128_S850000x1_S850000x128_1_0_n_n_0_1_1128 P (asCol (wrapIdx (srcIdx e)))) (broadcastInDim S850000x128 ![0, 1] bcast_S850000x1_S850000x128_0_1 (broadcastInDim S850000x1 ![0] bcast_S850000_S850000x1_0 (edgeNorm e))))) (broadcastInDim S50000x128 ![0, 1] bcast_S1x128_S50000x128_0_1 (broadcastInDim S1x128 ![1] bcast_S128_S1x128_1 b))

/-- The hidden layer: the convolution of x·W1 with bias b1, clipped at zero. -/
def hidden (x : FVec Ideal S50000x512 .f32) (e : IVec S2x800000 32) (w1 : FVec Ideal S512x256 .f32) (b1 : FVec Ideal S256 .f32) : FVec Ideal S50000x256 .f32 :=
  maximumf (conv256 (Host.dotGeneral dot_S50000x512_S512x256_S50000x256_1_0_0_1_n_n none x w1) e b1) (broadcastInDim S50000x256 ![] bcast_S_S50000x256 (constant S_ .f32 0x00000000#32))

/-- One head: the convolution of hidden·W with bias b. -/
def head (x : FVec Ideal S50000x512 .f32) (e : IVec S2x800000 32) (w1 : FVec Ideal S512x256 .f32) (b1 : FVec Ideal S256 .f32)
    (w : FVec Ideal S256x128 .f32) (b : FVec Ideal S128 .f32) : FVec Ideal S50000x128 .f32 :=
  conv128 (Host.dotGeneral dot_S50000x256_S256x128_S50000x128_1_0_0_1_n_n none (hidden x e w1 b1) w) e b

/-- Two tables of 128 columns stacked along a new leading axis. -/
def stack (a b : FVec Ideal S50000x128 .f32) : FVec Ideal S2x50000x128 .f32 :=
  concatenate S2x50000x128 0 [⟨S1x50000x128, (broadcastInDim S1x50000x128 ![1, 2] bcast_S50000x128_S1x50000x128_1_2 a)⟩, ⟨S1x50000x128, (broadcastInDim S1x50000x128 ![1, 2] bcast_S50000x128_S1x50000x128_1_2 b)⟩] concatenates_S1x50000x128_S1x50000x128_S2x50000x128_d0

end Cert.ReferenceIdeal.RefValue

end
-- ==== Proof.RefResult.lean ====
/-
  The reference program's result term is the composition of its named pieces: the two heads of the second layer, stacked.
-/
import proofs.«164936_j60593398612125_2_alg».proof.Proof.RefRunPatched
import proofs.«164936_j60593398612125_2_alg».proof.Proof.RefTerms

noncomputable section

namespace Cert.ReferenceIdeal.RefValue

open Cert.ReferenceIdeal Cert.ReferenceIdeal.Gen Idealize.ShloMosaic Idealize.ShloMosaic.TcCoe Idealize.SL.Sem

set_option maxRecDepth 8192 in
/-- The program's result term is the two heads stacked. -/
theorem res_eq (m : (ℓ : Loc nD τ sig) → Buf (Elt Ideal) ℓ) (c : Dev nD) :
    Cert.ReferenceIdeal.ValueP.res_main_v130 (F := Ideal) m c
      = stack
          (head (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
          (head (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg6)) (m ((c.tc : Thread nD τ).loc main_arg7))) := by
  unfold Cert.ReferenceIdeal.ValueP.res_main_v130 stack head hidden conv128 conv256 edgeNorm nodeFactor degree asCol wrapIdx srcIdx dstIdx
  rfl

end Cert.ReferenceIdeal.RefValue

end
-- ==== Proof.KernelRun.lean ====
/-
  The idealized kernel's whole run with its result named.

  The program is two pallas_calls among three stretches of host operations. Its run from any launch memory is the run of
  seven segments in order, and the buffers at every segment boundary are a fold from the launch memory: a host
  stretch applies its operations, a region replaces its output array by what its grid points write back and leaves every
  other buffer alone. So every weakly fair execution terminates without a fault, and at the end every unscoped buffer
  holds the last boundary's contents. Read at the result buffer this names the result; read at an argument it gives
  the argument back, since nothing writes one.
-/
import proofs.«164936_j60593398612125_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run_named : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Whole

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.RegionZero.lean ====
/-
  What the first pallas_call leaves in its output array.

  The call runs over ten grid points. Point t reads rows 5000·t … 5000·t + 4999 of the node features x and of the
  node-factor column d, and the whole weight matrix w; it writes the same rows of the output. The body computes, for its
  block, (x·w) scaled row by row by d, and an entry of a matrix product reads one row of the left factor only, so the
  block is rows 5000·t … of the whole array

      out(n, j) = (Σ_k x(n, k) · w(k, j)) · d(n, 0).

  The ten row blocks tile the array, so after the call the output array is that function.
-/
import proofs.«164936_j60593398612125_2_alg».proof.Proof.Gen.KernelIdeal.Frame
import proofs.«164936_j60593398612125_2_alg».proof.Proof.LibAffine
import proofs.«164936_j60593398612125_2_alg».proof.Proof.LibPlainDot
import proofs.«164936_j60593398612125_2_alg».proof.Proof.LibDenseOps
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The product of the features with the weights, every row scaled by the row's entry of the column `d`. -/
def scaledProduct0 (x : S50000x512.Idx → Elt Ideal .f32) (w : S512x256.Idx → Elt Ideal .bf16) (d : S50000x1.Idx → Elt Ideal .f32) :
    S50000x256.Idx → Elt Ideal .f32 :=
  fun i => (∑ k : Fin 512, x (ix2 (i 0) k) * w (ix2 k (i 1))) * d (ix2 (i 0) (0 : Fin 1))

theorem zero_offsets : (![0, 0] : Fin 2 → Nat) = fun _ => 0 := funext fun a => by fin_cases a <;> rfl

/-- The body's stored value at entry `(p, q)` of its block: the product's entry times the factor of row `p`. -/
theorem pay0_apply (x0 : Vec Ideal S5000x512 .f32) (x1 : Vec Ideal S512x256 .bf16) (x2 : Vec Ideal S5000x1 .f32)
    (p : Fin 5000) (q : Fin 256) :
    k0_pay1 (F := Ideal) x0 x1 x2 (ix2 p q) = (∑ k : Fin 512, x0 (ix2 p k) * x1 (ix2 k q)) * x2 (ix2 p (0 : Fin 1)) := by
  have hlc : dot_S5000x512_S512x256_S5000x256_1_0_0_1_n_n.lhsContracting = [1] := rfl
  unfold k0_pay1
  refine (mulf_apply _ _ _).trans ?_
  rw [shapeCast_self, shapeCast_self, Cert.LibDenseOps.broadcastTo_a1_ab_apply]
  refine congrArg (· * x2 (ix2 p (0 : Fin 1))) ?_
  exact Cert.LibAffine.coreDot_ix2 dot_S5000x512_S512x256_S5000x256_1_0_0_1_n_n
    (Cert.LibPlainDot.contr_rank _ hlc) (Cert.LibPlainDot.contr_size _ hlc)
    (Cert.LibPlainDot.lhs_row _ rfl rfl) (Cert.LibPlainDot.lhs_col _ hlc)
    (Cert.LibPlainDot.rhs_row _ hlc rfl) (Cert.LibPlainDot.rhs_col _ rfl rfl rfl rfl) none _ _ p q

/-- The same at any index of the block. -/
theorem pay0_idx (x0 : Vec Ideal S5000x512 .f32) (x1 : Vec Ideal S512x256 .bf16) (x2 : Vec Ideal S5000x1 .f32)
    (y : S5000x256.Idx) :
    k0_pay1 (F := Ideal) x0 x1 x2 y
      = (∑ k : Fin 512, x0 (ix2 (y 0 : Fin 5000) k) * x1 (ix2 k (y 1 : Fin 256))) * x2 (ix2 (y 0 : Fin 5000) (0 : Fin 1)) := by
  obtain ⟨p, q, rfl⟩ : ∃ (p : Fin 5000) (q : Fin 256), y = ix2 p q := ⟨y 0, y 1, eq_ix2 y⟩
  exact pay0_apply x0 x1 x2 p q

/-- The index maps over the grid: the features', the column's and the output's blocks move together along the rows;
    the weights' block and every column block index are zero. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

section
variable (V : (c : Dev nD) → (b : Ref sig .tc) → Buf (Elt Ideal) ((c : Thread nD τ).loc b))

/-- What point `t` writes back is block `t` of the scaled product of the arrays as the call finds them. -/
theorem flushed0_eq (c : Dev nD) (t : Fin cfg0.N) :
    (dat0 V c).flushed 3 t = ((cfg0.win 3).blk t).view.read (Elt Ideal)
      (scaledProduct0 (V c main_arg0) (V c main_v16) (V c main_v15)) := by
  show (cfg0.win 3).cut (grid0.coords t) ((dat0 V c).after 3 t) = _
  rw [after0_3]
  unfold out0_3
  rw [View.canon_unit_zero zero_offsets]
  simp only [View.ld_unit_zero (S := S5000x512) zero_offsets, View.ld_unit_zero (S := S512x256) zero_offsets,
    View.ld_unit_zero (S := S5000x1) zero_offsets]
  obtain ⟨e0, e1, e2, e3, e4, e5, e6, e7⟩ := idx_facts0 t
  funext y
  refine (pay0_idx _ _ _ y).trans ?_
  have hx : ∀ k : Fin 512, iblk0 V c 0 t (ix2 (y 0 : Fin 5000) k)
      = V c main_arg0 (ix2 ((((cfg0.win 3).blk t).view.emb y) 0) k) := fun k => by
    show V c main_arg0 (((cfg0.win 0).blk t).view.emb (ix2 (y 0 : Fin 5000) k)) = _
    refine congrArg (V c main_arg0) ?_
    funext a; apply Fin.ext
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 512 + 1 * k.val = k.val; omega
  have hw : ∀ k : Fin 512, iblk0 V c 1 t (ix2 k (y 1 : Fin 256))
      = V c main_v16 (ix2 k ((((cfg0.win 3).blk t).view.emb y) 1)) := fun k => by
    show V c main_v16 (((cfg0.win 1).blk t).view.emb (ix2 k (y 1 : Fin 256))) = _
    refine congrArg (V c main_v16) ?_
    funext a; apply Fin.ext
    match a with
    | ⟨0, _⟩ => show win0_1.index t (0 : Fin 2) * 512 + 1 * k.val = k.val; omega
    | ⟨1, _⟩ => show win0_1.index t (1 : Fin 2) * 256 + 1 * (y 1).val = win0_3.index t (1 : Fin 2) * 256 + 1 * (y 1).val; omega
  have hd : iblk0 V c 2 t (ix2 (y 0 : Fin 5000) (0 : Fin 1))
      = V c main_v15 (ix2 ((((cfg0.win 3).blk t).view.emb y) 0) (0 : Fin 1)) := by
    show V c main_v15 (((cfg0.win 2).blk t).view.emb (ix2 (y 0 : Fin 5000) (0 : Fin 1))) = _
    refine congrArg (V c main_v15) ?_
    funext a; apply Fin.ext
    match a with
    | ⟨0, _⟩ => show win0_2.index t (0 : Fin 2) * 5000 + 1 * (y 0).val = win0_3.index t (0 : Fin 2) * 5000 + 1 * (y 0).val; omega
    | ⟨1, _⟩ => show win0_2.index t (1 : Fin 2) * 1 + 1 * 0 = 0; omega
  rw [hd, Finset.sum_congr rfl fun k _ => by rw [hx k, hw k]]
  rfl

/-- An index lies in point `t`'s block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v21).slice (win0_3.rect t)).set ↔ _
  rw [View.set_slice_whole, Rect.mem_set_unit]
  exact Iff.rfl

/-- The ten row blocks cover the array. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- THE ARRAY after the first call: the scaled product of the arrays as the call finds them. -/
theorem region0_array (c : Dev nD) :
    (dat0 V c).arrAt 3 cfg0.N = scaledProduct0 (V c main_arg0) (V c main_v16) (V c main_v15) :=
  (dat0 V c).arrAt_eq_of_cover 3 _ (fun t _ => flushed0_eq V c t) (cover0)

end

end Cert.KernelIdeal.Whole

end
-- ==== Proof.RegionOne.lean ====
/-
  What the second pallas_call leaves in its output array.

  The call runs over ten grid points. Point t reads rows 5000·t … 5000·t + 4999 of the aggregated table agg and of the
  node-factor column d, the whole weight matrix w and the whole bias row b; it writes the same rows of the output. For
  its block the body forms the hidden layer h = max(d · agg + b, 0) row by row, multiplies it by w and scales the rows
  by d again. Entry (n, j) of that reads row n only, so the block is rows 5000·t … of the whole array

      out(n, j) = (Σ_k max(d(n, 0) · agg(n, k) + b(0, k), 0) · w(k, j)) · d(n, 0).

  The ten row blocks tile the array, so after the call the output array is that function.
-/
import proofs.«164936_j60593398612125_2_alg».proof.Proof.Gen.KernelIdeal.Frame
import proofs.«164936_j60593398612125_2_alg».proof.Proof.RegionZero

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The hidden layer's entry `(n, k)`: the node's factor times the aggregated entry, plus the bias, clipped at zero. -/
def hiddenAt (agg : S50000x256.Idx → Elt Ideal .f32) (d : S50000x1.Idx → Elt Ideal .f32) (b : S1x256.Idx → Elt Ideal .f32)
    (n : Fin 50000) (k : Fin 256) : EReal :=
  max (d (ix2 n (0 : Fin 1)) * agg (ix2 n k) + b (ix2 (0 : Fin 1) k)) (Ideal.ofBits .f32 0x00000000#32)

/-- The hidden layer times the weights, every row scaled by the row's entry of the column `d`. -/
def hiddenProduct1 (agg : S50000x256.Idx → Elt Ideal .f32) (w : S256x256.Idx → Elt Ideal .bf16)
    (d : S50000x1.Idx → Elt Ideal .f32) (b : S1x256.Idx → Elt Ideal .f32) : S50000x256.Idx → Elt Ideal .f32 :=
  fun i => (∑ k : Fin 256, hiddenAt agg d b (i 0) k * w (ix2 k (i 1))) * d (ix2 (i 0) (0 : Fin 1))

/-- The body's stored value at entry `(p, q)` of its block. -/
theorem pay1_apply (v0 : Vec Ideal S5000x1 .f32) (v2 : Vec Ideal S5000x256 .f32) (v6 : Vec Ideal S1x256 .f32)
    (v13 : Vec Ideal S256x256 .bf16) (v16 : Vec Ideal S5000x1 .f32) (p : Fin 5000) (q : Fin 256) :
    k1_pay1 (F := Ideal) v0 v2 v6 v13 v16 (ix2 p q)
      = (∑ k : Fin 256, max (v0 (ix2 p (0 : Fin 1)) * v2 (ix2 p k) + v6 (ix2 (0 : Fin 1) k)) (Ideal.ofBits .f32 0x00000000#32)
          * v13 (ix2 k q)) * v16 (ix2 p (0 : Fin 1)) := by
  have hlc : dot_S5000x256_S256x256_S5000x256_1_0_0_1_n_n.lhsContracting = [1] := rfl
  unfold k1_pay1
  refine (mulf_apply _ _ _).trans ?_
  rw [shapeCast_self, shapeCast_self, shapeCast_self, shapeCast_self, shapeCast_self,
    Cert.LibDenseOps.broadcastTo_a1_ab_apply]
  refine congrArg (· * v16 (ix2 p (0 : Fin 1))) ?_
  refine (Cert.LibAffine.coreDot_ix2 (φ₁ := .bf16) (φ₂ := .bf16) dot_S5000x256_S256x256_S5000x256_1_0_0_1_n_n
    (Cert.LibPlainDot.contr_rank _ hlc) (Cert.LibPlainDot.contr_size _ hlc)
    (Cert.LibPlainDot.lhs_row _ rfl rfl) (Cert.LibPlainDot.lhs_col _ hlc)
    (Cert.LibPlainDot.rhs_row _ hlc rfl) (Cert.LibPlainDot.rhs_col _ rfl rfl rfl rfl) none _ _ p q).trans ?_
  refine Finset.sum_congr rfl fun k _ => ?_
  refine congrArg (· * v13 (ix2 k q)) ?_
  show max ((broadcastTo S5000x256 v0 broadcasts_S5000x1_S5000x256) (ix2 p k) * v2 (ix2 p k)
      + (broadcastTo S5000x256 v6 broadcasts_S1x256_S5000x256) (ix2 p k)) (Ideal.ofBits .f32 0x00000000#32) = _
  rw [Cert.LibDenseOps.broadcastTo_a1_ab_apply, broadcastTo_1b_ab_apply]

/-- The same at any index of the block. -/
theorem pay1_idx (v0 : Vec Ideal S5000x1 .f32) (v2 : Vec Ideal S5000x256 .f32) (v6 : Vec Ideal S1x256 .f32)
    (v13 : Vec Ideal S256x256 .bf16) (v16 : Vec Ideal S5000x1 .f32) (y : S5000x256.Idx) :
    k1_pay1 (F := Ideal) v0 v2 v6 v13 v16 y
      = (∑ k : Fin 256, max (v0 (ix2 (y 0 : Fin 5000) (0 : Fin 1)) * v2 (ix2 (y 0 : Fin 5000) k) + v6 (ix2 (0 : Fin 1) k))
            (Ideal.ofBits .f32 0x00000000#32) * v13 (ix2 k (y 1 : Fin 256))) * v16 (ix2 (y 0 : Fin 5000) (0 : Fin 1)) := by
  obtain ⟨p, q, rfl⟩ : ∃ (p : Fin 5000) (q : Fin 256), y = ix2 p q := ⟨y 0, y 1, eq_ix2 y⟩
  exact pay1_apply v0 v2 v6 v13 v16 p q

/-- The index maps over the grid: the aggregated table's, the column's and the output's blocks move together along
    the rows; the weights' and the bias row's blocks and every column block index are zero. -/
theorem idx_facts1 : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

section
variable (V : (c : Dev nD) → (b : Ref sig .tc) → Buf (Elt Ideal) ((c : Thread nD τ).loc b))

/-- What point `t` writes back is block `t` of the hidden product of the arrays as the call finds them. -/
theorem flushed1_eq (c : Dev nD) (t : Fin cfg1.N) :
    (dat1 V c).flushed 4 t = ((cfg1.win 4).blk t).view.read (Elt Ideal)
      (hiddenProduct1 (V c main_v31) (V c main_v18) (V c main_v15) (V c main_v20)) := by
  show (cfg1.win 4).cut (grid1.coords t) ((dat1 V c).after 4 t) = _
  rw [after1_4]
  unfold out1_4
  rw [View.canon_unit_zero zero_offsets]
  simp only [View.ld_unit_zero (S := S5000x256) zero_offsets, View.ld_unit_zero (S := S256x256) zero_offsets,
    View.ld_unit_zero (S := S5000x1) zero_offsets, View.ld_unit_zero (S := S1x256) zero_offsets]
  obtain ⟨e0, e1, e2, e3, e4, e5, e6, e7, e8, e9⟩ := idx_facts1 t
  funext y
  refine (pay1_idx _ _ _ _ _ y).trans ?_
  have ha : ∀ k : Fin 256, iblk1 V c 0 t (ix2 (y 0 : Fin 5000) k)
      = V c main_v31 (ix2 ((((cfg1.win 4).blk t).view.emb y) 0) k) := fun k => by
    show V c main_v31 (((cfg1.win 0).blk t).view.emb (ix2 (y 0 : Fin 5000) k)) = _
    refine congrArg (V c main_v31) ?_
    funext a; apply Fin.ext
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 256 + 1 * k.val = k.val; omega
  have hw : ∀ k : Fin 256, iblk1 V c 1 t (ix2 k (y 1 : Fin 256))
      = V c main_v18 (ix2 k ((((cfg1.win 4).blk t).view.emb y) 1)) := fun k => by
    show V c main_v18 (((cfg1.win 1).blk t).view.emb (ix2 k (y 1 : Fin 256))) = _
    refine congrArg (V c main_v18) ?_
    funext a; apply Fin.ext
    match a with
    | ⟨0, _⟩ => show win1_1.index t (0 : Fin 2) * 256 + 1 * k.val = k.val; omega
    | ⟨1, _⟩ => show win1_1.index t (1 : Fin 2) * 256 + 1 * (y 1).val = win1_4.index t (1 : Fin 2) * 256 + 1 * (y 1).val; omega
  have hd : iblk1 V c 2 t (ix2 (y 0 : Fin 5000) (0 : Fin 1))
      = V c main_v15 (ix2 ((((cfg1.win 4).blk t).view.emb y) 0) (0 : Fin 1)) := by
    show V c main_v15 (((cfg1.win 2).blk t).view.emb (ix2 (y 0 : Fin 5000) (0 : Fin 1))) = _
    refine congrArg (V c main_v15) ?_
    funext a; apply Fin.ext
    match a with
    | ⟨0, _⟩ => show win1_2.index t (0 : Fin 2) * 5000 + 1 * (y 0).val = win1_4.index t (0 : Fin 2) * 5000 + 1 * (y 0).val; omega
    | ⟨1, _⟩ => show win1_2.index t (1 : Fin 2) * 1 + 1 * 0 = 0; omega
  have hb : ∀ k : Fin 256, iblk1 V c 3 t (ix2 (0 : Fin 1) k) = V c main_v20 (ix2 (0 : Fin 1) k) := fun k => by
    show V c main_v20 (((cfg1.win 3).blk t).view.emb (ix2 (0 : Fin 1) k)) = _
    refine congrArg (V c main_v20) ?_
    funext a; apply Fin.ext
    match a with
    | ⟨0, _⟩ => show win1_3.index t (0 : Fin 2) * 1 + 1 * 0 = 0; omega
    | ⟨1, _⟩ => show win1_3.index t (1 : Fin 2) * 256 + 1 * k.val = k.val; omega
  rw [hd, Finset.sum_congr rfl fun k _ => by rw [ha k, hw k, hb k]]
  rfl

/-- An index lies in point `t`'s block iff each coordinate is in the block's range on its axis. -/
theorem mem_blk1 (t : Fin cfg1.N) (i : S50000x256.Idx) :
    i ∈ ((cfg1.win 4).blk t).view.set ↔ ∀ a : Fin 2, win1_4.index t a * S5000x256.size a ≤ (i a).val
      ∧ (i a).val < win1_4.index t a * S5000x256.size a + S5000x256.size a := by
  show i ∈ ((View.whole main_v32).slice (win1_4.rect t)).set ↔ _
  rw [View.set_slice_whole, Rect.mem_set_unit]
  exact Iff.rfl

/-- The ten row blocks cover the array. -/
theorem cover1 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

/-- THE ARRAY after the second call: the hidden product of the arrays as the call finds them. -/
theorem region1_array (c : Dev nD) :
    (dat1 V c).arrAt 4 cfg1.N = hiddenProduct1 (V c main_v31) (V c main_v18) (V c main_v15) (V c main_v20) :=
  (dat1 V c).arrAt_eq_of_cover 4 _ (fun t _ => flushed1_eq V c t) (cover1)

end

end Cert.KernelIdeal.Whole

end
-- ==== Proof.KernelValue.lean ====
/-
  The idealized kernel's result as a function of its arguments.

  The last boundary's contents at the result buffer are read back through the program, segment by segment:
  the tail stretch (gather the second call's rows at the sources, sum them into the targets' rows, scale each row by
  the node factor, add the joined bias, cut the two heads and stack them); the second call (the hidden product of
  region 1); the middle stretch (gather the first call's rows at the sources and sum them into the targets' rows); the
  first call (the scaled product of region 0); and the head stretches (the index arrays, the degree and the node
  factor, the casts and joins of the weights and biases). A buffer a segment does not write is read through it
  unchanged.
-/
import proofs.«164936_j60593398612125_2_alg».proof.Proof.KernelRun
import proofs.«164936_j60593398612125_2_alg».proof.Proof.RegionZero
import proofs.«164936_j60593398612125_2_alg».proof.Proof.RegionOne
import proofs.«164936_j60593398612125_2_alg».proof.Proof.RefTerms
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Cert.ReferenceIdeal (RefValue.srcIdx RefValue.dstIdx RefValue.wrapIdx RefValue.asCol RefValue.nodeFactor RefValue.degree RefValue.stack)

variable (m : (ℓ : Loc nD τ sig) → Buf (Elt Ideal) ℓ) (ρ : Dev nD → PrngReg)

/-- Rows of a table gathered at the sources and summed into the targets' rows, from a table of zeros. -/
def gatherScatter (src dst : IVec S850000 32) (q : FVec Ideal S50000x256 .f32) : FVec Ideal S50000x256 .f32 :=
  Host.scatterAdd scatter_S50000x256_S850000x1_S850000x256_1_0_0_1 (broadcastInDim S50000x256 ![] bcast_S_S50000x256 (constant S_ .f32 0x00000000#32))
    (RefValue.asCol dst) (Host.gather gather_S50000x256_S850000x1_S850000x256_1_0_n_n_0_1_1256 q (RefValue.asCol (RefValue.wrapIdx src)))

/-- The tail before the cut: every row of the aggregated table scaled by the node factor, plus the joined bias. -/
def tailOut (src dst : IVec S850000 32) (q : FVec Ideal S50000x256 .f32) (dcol : FVec Ideal S50000x1 .f32)
    (bcat : FVec Ideal S256 .f32) : FVec Ideal S50000x256 .f32 :=
  addf (mulf (broadcastInDim S50000x256 ![0, 1] bcast_S50000x1_S50000x256_0_1 dcol) (gatherScatter src dst q))
    (broadcastInDim S50000x256 ![0, 1] bcast_S1x256_S50000x256_0_1 (broadcastInDim S1x256 ![1] bcast_S256_S1x256_1 bcat))

/-- The node factor laid as a column. -/
def factorCol (e : IVec S2x800000 32) : FVec Ideal S50000x1 .f32 :=
  shapeCast S50000x1 (RefValue.nodeFactor e) shapeCasts_S50000_S50000x1

/-- The two heads' weights joined along the columns, and their biases joined. -/
def wCat (w4 w6 : FVec Ideal S256x128 .f32) : FVec Ideal S256x256 .f32 :=
  concatenate S256x256 1 [⟨S256x128, w4⟩, ⟨S256x128, w6⟩] concatenates_S256x128_S256x128_S256x256_d1
def bCat (b5 b7 : FVec Ideal S128 .f32) : FVec Ideal S256 .f32 :=
  concatenate S256 0 [⟨S128, b5⟩, ⟨S128, b7⟩] concatenates_S128_S128_S256_d0

/-- The weights as the calls read them: a change of float format, which at the extended reals changes nothing. -/
def castW1 (w1 : FVec Ideal S512x256 .f32) : FVec Ideal S512x256 .bf16 := truncf .bf16 w1 bitsLt_bf16_f32
def castWcat (w : FVec Ideal S256x256 .f32) : FVec Ideal S256x256 .bf16 := truncf .bf16 w bitsLt_bf16_f32

/-! ## The head stretches -/

theorem head_src (c : Dev nD) : W3 m ρ c (Proc.devRef .tc main_v3) = RefValue.srcIdx (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results
  rfl

theorem head_dst (c : Dev nD) : W3 m ρ c (Proc.devRef .tc main_v6) = RefValue.dstIdx (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results
  rfl

/-- The reshape of the node factor into a column, from any contents of the buffers. -/
theorem reshape_stretch (V : Valuation τ sig (Elt Ideal)) :
    StableHlo.after hostOps0_2 V (Proc.devRef .tc main_v15)
      = shapeCast S50000x1 (V (Proc.devRef .tc main_v14)) shapeCasts_S50000_S50000x1 := by
  simp only [hostOps0_2]
  after_results
  rfl

/-- The select "where the degree is positive", from any contents of the buffers. -/
theorem where_stretch (V : Valuation τ sig (Elt Ideal)) :
    StableHlo.after hostOps0_1 V (Proc.devRef .tc main_v14)
      = select (V (Proc.devRef .tc main_v12)) (V (Proc.devRef .tc main_v13))
          (broadcastInDim S50000 ![] bcast_S_S50000 (id (V (Proc.devRef .tc main_cst_2)))) := by
  simp only [hostOps0_1]
  after_results
  rfl

set_option maxHeartbeats 4000000 in
theorem first_cmp (c : Dev nD) : W1 m ρ c (Proc.devRef .tc main_v12)
    = cmpf (F := Ideal) .ogt (RefValue.degree (m ((c : Thread nD τ).loc main_arg1)))
        (broadcastInDim S50000 ![] bcast_S_S50000 (constant S_ .f32 0x00000000#32)) := by
  show StableHlo.after hostOps0 (W0 m ρ c) (Proc.devRef .tc main_v12) = _
  simp only [hostOps0]
  after_results
  rfl

set_option maxHeartbeats 4000000 in
theorem first_rsqrt (c : Dev nD) : W1 m ρ c (Proc.devRef .tc main_v13)
    = Host.rsqrt (F := Ideal) (RefValue.degree (m ((c : Thread nD τ).loc main_arg1))) := by
  show StableHlo.after hostOps0 (W0 m ρ c) (Proc.devRef .tc main_v13) = _
  simp only [hostOps0]
  after_results
  rfl

theorem first_zero (c : Dev nD) : W1 m ρ c (Proc.devRef .tc main_cst_2) = constant (F := Ideal) S_ .f32 0x00000000#32 := by
  show StableHlo.after hostOps0 (W0 m ρ c) (Proc.devRef .tc main_cst_2) = _
  simp only [hostOps0]
  after_results

/-- The factor column the calls read: the reference's node factor, laid as a column. -/
theorem head_factor (c : Dev nD) : W3 m ρ c (Proc.devRef .tc main_v15) = factorCol (m ((c : Thread nD τ).loc main_arg1)) := by
  show StableHlo.after hostOps0_2 (StableHlo.after hostOps0_1 (W1 m ρ c)) (Proc.devRef .tc main_v15) = _
  rw [reshape_stretch, where_stretch, first_cmp, first_rsqrt, first_zero]
  rfl

theorem head_w1 (c : Dev nD) : W3 m ρ c (Proc.devRef .tc main_v16) = castW1 (m ((c : Thread nD τ).loc main_arg2)) := by
  show StableHlo.after hostOps0_2 (StableHlo.after hostOps0_1 (StableHlo.after hostOps0 (W0 m ρ c))) (Proc.devRef .tc main_v16) = _
  simp only [hostOps0, hostOps0_1, hostOps0_2]
  after_results
  rfl

theorem head_wcat (c : Dev nD) : W3 m ρ c (Proc.devRef .tc main_v18)
    = castWcat (wCat (m ((c : Thread nD τ).loc main_arg4)) (m ((c : Thread nD τ).loc main_arg6))) := by
  show StableHlo.after hostOps0_2 (StableHlo.after hostOps0_1 (StableHlo.after hostOps0 (W0 m ρ c))) (Proc.devRef .tc main_v18) = _
  simp only [hostOps0, hostOps0_1, hostOps0_2]
  after_results
  rfl

theorem head_bcat (c : Dev nD) : W3 m ρ c (Proc.devRef .tc main_v19)
    = bCat (m ((c : Thread nD τ).loc main_arg5)) (m ((c : Thread nD τ).loc main_arg7)) := by
  show StableHlo.after hostOps0_2 (StableHlo.after hostOps0_1 (StableHlo.after hostOps0 (W0 m ρ c))) (Proc.devRef .tc main_v19) = _
  simp only [hostOps0, hostOps0_1, hostOps0_2]
  after_results
  rfl

theorem head_b1 (c : Dev nD) : W3 m ρ c (Proc.devRef .tc main_v20)
    = shapeCast S1x256 (m ((c : Thread nD τ).loc main_arg3)) shapeCasts_S256_S1x256 := by
  show StableHlo.after hostOps0_2 (StableHlo.after hostOps0_1 (StableHlo.after hostOps0 (W0 m ρ c))) (Proc.devRef .tc main_v20) = _
  simp only [hostOps0, hostOps0_1, hostOps0_2]
  after_results
  rfl

theorem head_x (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results

/-! ## Through the first call -/

/-- The first call's output array: the scaled product of the features with the first weights. -/
theorem after_first (c : Dev nD) : W4 m ρ c (Proc.devRef .tc main_v21)
    = scaledProduct0 (m ((c : Thread nD τ).loc main_arg0)) (castW1 (m ((c : Thread nD τ).loc main_arg2)))
        (factorCol (m ((c : Thread nD τ).loc main_arg1))) := by
  refine ((W4_arr m ρ c 3).trans (region0_array (V3 m ρ) c)).trans ?_
  show scaledProduct0 (W3 m ρ c (Proc.devRef .tc main_arg0)) (W3 m ρ c (Proc.devRef .tc main_v16)) (W3 m ρ c (Proc.devRef .tc main_v15)) = _
  rw [head_x, head_w1, head_factor]

/-- The node-factor column is an input of the first call: the call leaves it as it was. -/
theorem first_keeps_factor (c : Dev nD) : W4 m ρ c (Proc.devRef .tc main_v15) = factorCol (m ((c : Thread nD τ).loc main_arg1)) :=
  ((W4_arr m ρ c 2).trans (((dat0 (V3 m ρ) c).arrAt_in 2 rfl _).trans (A_eq0 (V3 m ρ) c 2))).trans (head_factor m ρ c)

/-! ## The middle stretch -/

theorem mid_agg (c : Dev nD) : W5 m ρ c (Proc.devRef .tc main_v31)
    = gatherScatter (RefValue.srcIdx (m ((c : Thread nD τ).loc main_arg1))) (RefValue.dstIdx (m ((c : Thread nD τ).loc main_arg1)))
        (scaledProduct0 (m ((c : Thread nD τ).loc main_arg0)) (castW1 (m ((c : Thread nD τ).loc main_arg2)))
          (factorCol (m ((c : Thread nD τ).loc main_arg1)))) := by
  show StableHlo.after hostOps1 (W4 m ρ c) (Proc.devRef .tc main_v31) = _
  simp only [hostOps1]
  after_results
  rw [after_first, W4_of_ne m ρ c main_v3 (by decide), W4_of_ne m ρ c main_v6 (by decide), head_src, head_dst]
  rfl

theorem mid_factor (c : Dev nD) : W5 m ρ c (Proc.devRef .tc main_v15) = factorCol (m ((c : Thread nD τ).loc main_arg1)) := by
  show StableHlo.after hostOps1 (W4 m ρ c) (Proc.devRef .tc main_v15) = _
  simp only [hostOps1]
  after_results
  exact first_keeps_factor m ρ c

theorem mid_wcat (c : Dev nD) : W5 m ρ c (Proc.devRef .tc main_v18)
    = castWcat (wCat (m ((c : Thread nD τ).loc main_arg4)) (m ((c : Thread nD τ).loc main_arg6))) := by
  show StableHlo.after hostOps1 (W4 m ρ c) (Proc.devRef .tc main_v18) = _
  simp only [hostOps1]
  after_results
  exact (W4_of_ne m ρ c main_v18 (by decide)).trans (head_wcat m ρ c)

theorem mid_b1 (c : Dev nD) : W5 m ρ c (Proc.devRef .tc main_v20)
    = shapeCast S1x256 (m ((c : Thread nD τ).loc main_arg3)) shapeCasts_S256_S1x256 := by
  show StableHlo.after hostOps1 (W4 m ρ c) (Proc.devRef .tc main_v20) = _
  simp only [hostOps1]
  after_results
  exact (W4_of_ne m ρ c main_v20 (by decide)).trans (head_b1 m ρ c)

theorem mid_src (c : Dev nD) : W5 m ρ c (Proc.devRef .tc main_v3) = RefValue.srcIdx (m ((c : Thread nD τ).loc main_arg1)) := by
  show StableHlo.after hostOps1 (W4 m ρ c) (Proc.devRef .tc main_v3) = _
  simp only [hostOps1]
  after_results
  exact (W4_of_ne m ρ c main_v3 (by decide)).trans (head_src m ρ c)

theorem mid_dst (c : Dev nD) : W5 m ρ c (Proc.devRef .tc main_v6) = RefValue.dstIdx (m ((c : Thread nD τ).loc main_arg1)) := by
  show StableHlo.after hostOps1 (W4 m ρ c) (Proc.devRef .tc main_v6) = _
  simp only [hostOps1]
  after_results
  exact (W4_of_ne m ρ c main_v6 (by decide)).trans (head_dst m ρ c)

theorem mid_bcat (c : Dev nD) : W5 m ρ c (Proc.devRef .tc main_v19)
    = bCat (m ((c : Thread nD τ).loc main_arg5)) (m ((c : Thread nD τ).loc main_arg7)) := by
  show StableHlo.after hostOps1 (W4 m ρ c) (Proc.devRef .tc main_v19) = _
  simp only [hostOps1]
  after_results
  exact (W4_of_ne m ρ c main_v19 (by decide)).trans (head_bcat m ρ c)

/-! ## Through the second call -/

/-- The table the second call leaves: the hidden product. -/
def secondOut (x : FVec Ideal S50000x512 .f32) (e : IVec S2x800000 32) (w1 : FVec Ideal S512x256 .f32)
    (b1 : FVec Ideal S256 .f32) (w4 w6 : FVec Ideal S256x128 .f32) : FVec Ideal S50000x256 .f32 :=
  hiddenProduct1 (gatherScatter (RefValue.srcIdx e) (RefValue.dstIdx e) (scaledProduct0 x (castW1 w1) (factorCol e)))
    (castWcat (wCat w4 w6)) (factorCol e) (shapeCast S1x256 b1 shapeCasts_S256_S1x256)

theorem after_second (c : Dev nD) : W6 m ρ c (Proc.devRef .tc main_v32)
    = secondOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) := by
  refine ((W6_arr m ρ c 4).trans (region1_array (V5 m ρ) c)).trans ?_
  show hiddenProduct1 (W5 m ρ c (Proc.devRef .tc main_v31)) (W5 m ρ c (Proc.devRef .tc main_v18)) (W5 m ρ c (Proc.devRef .tc main_v15))
    (W5 m ρ c (Proc.devRef .tc main_v20)) = _
  rw [mid_agg, mid_wcat, mid_factor, mid_b1]
  rfl

theorem second_keeps_factor (c : Dev nD) : W6 m ρ c (Proc.devRef .tc main_v15) = factorCol (m ((c : Thread nD τ).loc main_arg1)) :=
  ((W6_arr m ρ c 2).trans (((dat1 (V5 m ρ) c).arrAt_in 2 rfl _).trans (A_eq1 (V5 m ρ) c 2))).trans (mid_factor m ρ c)

/-! ## The tail stretch -/

/-- The columns 0 … 127 and 128 … 255 of a table of 256 columns. -/
def headCut (o : FVec Ideal S50000x256 .f32) : FVec Ideal S50000x128 .f32 :=
  extractStridedSlice S50000x128 ![0, 0] o slices_S50000x256_S50000x128_0_0
def tailCut (o : FVec Ideal S50000x256 .f32) : FVec Ideal S50000x128 .f32 :=
  extractStridedSlice S50000x128 ![0, 128] o slices_S50000x256_S50000x128_0_128

/-- The table before the cut, as a function of the arguments. -/
def finalTable (x : FVec Ideal S50000x512 .f32) (e : IVec S2x800000 32) (w1 : FVec Ideal S512x256 .f32)
    (b1 : FVec Ideal S256 .f32) (w4 : FVec Ideal S256x128 .f32) (b5 : FVec Ideal S128 .f32) (w6 : FVec Ideal S256x128 .f32)
    (b7 : FVec Ideal S128 .f32) : FVec Ideal S50000x256 .f32 :=
  tailOut (RefValue.srcIdx e) (RefValue.dstIdx e) (secondOut x e w1 b1 w4 w6) (factorCol e) (bCat b5 b7)

set_option maxHeartbeats 40000000 in
/-- THE RESULT: the two cuts of the final table, stacked. -/
theorem result_eq (c : Dev nD) : W7 m ρ c (Proc.devRef .tc main_v52)
    = RefValue.stack
        (headCut (finalTable (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))))
        (tailCut (finalTable (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)))) := by
  show StableHlo.after hostOps2 (W6 m ρ c) (Proc.devRef .tc main_v52) = _
  simp only [hostOps2]
  after_results
  rw [after_second, second_keeps_factor, W6_of_ne m ρ c main_v3 (by decide), W6_of_ne m ρ c main_v6 (by decide),
    W6_of_ne m ρ c main_v19 (by decide), mid_src, mid_dst, mid_bcat]
  rfl

end Cert.KernelIdeal.Whole

end
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.LibRowScatter.lean ====
/-
  A row scatter-add read at an index.

  Rows `[E, C]` are accumulated into a table `[N, C]` at `E` start indices (an array `[E, 1]`): update row `e` goes to
  the table's row at the `e`-th start index, read signed and not clamped; a row whose start index is not a row of the
  table is dropped. On the extended reals the accumulated table is, entry by entry, a sum over the edges:

  * `lands_iff`: update entry `(e, c')` lands on table entry `(n, c)` exactly when the `e`-th start index, read
    signed, is `n` and `c' = c`;
  * `rowScatterAdd_apply`: entry `(n, c)` of the result is the operand's entry plus the sum over all edges `e` whose
    start index is `n` of update entry `(e, c)`.

  In particular column `c` of the result reads only column `c` of the operand and of the updates, whatever the width
  `C` is. Sums on the extended reals are total, so nothing here needs finiteness. Nothing here mentions a program:
  the extents are variables.
-/
import proofs.«164936_j60593398612125_2_alg».proof.Proof.LibSegmentSum

noncomputable section

open scoped BigOperators

namespace Idealize.ShloMosaic.RowScatter

open Idealize.ShloMosaic Idealize.ShloMosaic.ValueIdx Idealize.ShloMosaic.SegmentSum

variable {N E C w : Nat}

private theorem fin2_one_ne_zero : ¬((1 : Fin 2) = 0) := by decide

/-- On the row axis the window starts at the start index, read signed. -/
theorem start_row (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at zero: the start indices name rows only. -/
theorem start_col (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  intro h
  exact fin2_one_ne_zero (List.mem_singleton.mp h)

/-- The row axis is inserted: the window has no extent along it. -/
theorem window_row (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := by
  unfold ScatterDims.window
  rw [dif_neg]
  intro hmem
  have := (List.mem_filter.mp hmem).2
  simp at this

/-- Along the columns the window coordinate is the update's column. -/
theorem window_col (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := by
  have h1 : (1 : Fin 2) ∈ (rowScatterDims N E C wf).sKept := by
    refine List.mem_filter.mpr ⟨List.mem_finRange _, ?_⟩
    simp
  unfold ScatterDims.window
  rw [dif_pos h1]
  rfl

/-- Where an update entry lands: entry `(e, c')` of the updates goes to entry `(n, c)` of the table exactly when the
    `e`-th start index, read signed, is `n`, and `c' = c`. -/
theorem lands_iff (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e 0)).toInt = (n.val : Int) ∧ c' = c := by
  have hs0 := start_row wf idx (ix2 e c')
  have hs1 := start_col wf idx (ix2 e c')
  have hw0 := window_row wf (ix2 e c')
  have hw1 := window_col wf (ix2 e c')
  have he : (ix2 e c' : (⟨2, ![E, C]⟩ : Shape).Idx) 0 = e := rfl
  have hc : ((ix2 e c' : (⟨2, ![E, C]⟩ : Shape).Idx) 1).val = c'.val := rfl
  rw [he] at hs0
  rw [hc] at hw1
  unfold ScatterDims.resultIdx?
  constructor
  · intro h
    split at h
    · rename_i hall
      have hi := Option.some.inj h
      have h0 : ((rowScatterDims N E C wf).start (ix2 e c') idx 0
          + ((rowScatterDims N E C wf).window (ix2 e c') 0 : Int)).toNat = n.val := by
        have := congrArg (fun f : (⟨2, ![N, C]⟩ : Shape).Idx => (f 0).val) hi
        exact this
      have h1 : ((rowScatterDims N E C wf).start (ix2 e c') idx 1
          + ((rowScatterDims N E C wf).window (ix2 e c') 1 : Int)).toNat = c.val := by
        have := congrArg (fun f : (⟨2, ![N, C]⟩ : Shape).Idx => (f 1).val) hi
        exact this
      have hnn := (hall 0).1
      rw [hs0, hw0] at h0 hnn
      rw [hs1, hw1] at h1
      refine ⟨by omega, Fin.ext (by omega)⟩
    · exact absurd h (by simp)
  · rintro ⟨hrow, rfl⟩
    have hnlt : n.val < N := n.isLt
    have hclt : c'.val < C := c'.isLt
    have hall : ∀ a : Fin (⟨2, ![N, C]⟩ : Shape).rank,
        0 ≤ (rowScatterDims N E C wf).start (ix2 e c') idx a + ((rowScatterDims N E C wf).window (ix2 e c') a : Int)
        ∧ (rowScatterDims N E C wf).start (ix2 e c') idx a + ((rowScatterDims N E C wf).window (ix2 e c') a : Int)
            < (⟨2, ![N, C]⟩ : Shape).size a := by
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0, hrow]; constructor <;> omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; constructor <;> omega
    rw [dif_pos hall]
    refine congrArg some ?_
    funext a
    refine Fin.ext ?_
    match a with
    | ⟨0, _⟩ =>
      show ((rowScatterDims N E C wf).start (ix2 e c') idx 0 + ((rowScatterDims N E C wf).window (ix2 e c') 0 : Int)).toNat = n.val
      rw [hs0, hw0, hrow]; omega
    | ⟨1, _⟩ =>
      show ((rowScatterDims N E C wf).start (ix2 e c') idx 1 + ((rowScatterDims N E C wf).window (ix2 e c') 1 : Int)).toNat = c'.val
      rw [hs1, hw1]; omega

/-- THE READING. Entry `(n, c)` of a row scatter-add is the operand's entry plus the sum, over the edges `e` whose start
    index read signed is `n`, of update entry `(e, c)`. -/
theorem rowScatterAdd_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) x idx u (ix2 n c)
      = x (ix2 n c) + ∑ e : Fin E, if (idx (ix2 e 0)).toInt = (n.val : Int) then u (ix2 e c) else 0 := by
  classical
  unfold Ideal.hostScatterAdd
  refine congrArg (x (ix2 n c) + ·) ?_
  rw [Finset.sum_filter, sum_idx2]
  refine Finset.sum_congr rfl fun e _ => ?_
  by_cases hrow : (idx (ix2 e 0)).toInt = (n.val : Int)
  · rw [if_pos hrow]
    rw [Finset.sum_eq_single c]
    · rw [if_pos ((lands_iff wf idx e c n c).mpr ⟨hrow, rfl⟩)]
    · intro c' _ hne
      rw [if_neg]
      intro h
      exact hne ((lands_iff wf idx e c' n c).mp h).2
    · intro h; exact absurd (Finset.mem_univ c) h
  · rw [if_neg hrow]
    refine Finset.sum_eq_zero fun c' _ => ?_
    rw [if_neg]
    intro h
    exact hrow ((lands_iff wf idx e c' n c).mp h).1

end Idealize.ShloMosaic.RowScatter

end
-- ==== Proof.LibGraphAggregate.lean ====
/-
  One graph-convolution aggregation read at an index.

  A table `P` of shape `[N, C]` is gathered row by row at `E` source indices, every gathered row is scaled by its edge's
  weight, the scaled rows are summed into an `[N, C]` table of zeros at `E` target indices, and a bias row is added to
  every row. On the extended reals entry `(n, c)` of the result is

      (0 + the sum, over the edges e whose target is n, of P (source e, c) · weight e) + bias c,

  the source read signed and clamped into the table, the target read signed and not clamped (an edge whose target is
  not a row of the table is dropped). Column `c` of the result reads only column `c` of `P` and entry `c` of the bias, so
  two such aggregations of different widths over the same edges agree wherever their tables and biases agree column by
  column. Sums on the extended reals are total: nothing here needs finiteness. Nothing here mentions a program: the
  extents are variables and the shape relations are hypotheses.
-/
import proofs.«164936_j60593398612125_2_alg».proof.Proof.LibSegmentSum
import proofs.«164936_j60593398612125_2_alg».proof.Proof.LibRowScatter
import Idealize.ShloMosaic.Lib.Pipeline.Value
import Idealize.ShloMosaic.Lib.ValueIdx

noncomputable section

open scoped BigOperators

namespace Idealize.ShloMosaic.GraphAggregate

open Idealize.ShloMosaic Idealize.ShloMosaic.ValueIdx Idealize.ShloMosaic.SegmentSum Idealize.ShloMosaic.RowScatter

variable {N E C : Nat}

/-- Entry `(n, c)` of the aggregation: the start value, plus the sum over the edges landing on `n` of the table's entry
    at the edge's source and column `c` times the edge's weight, plus the bias. -/
def aggregateAt (hN : 0 < N) (P : (⟨2, ![N, C]⟩ : Shape).Idx → EReal) (srcIdx dstIdx : IVec ⟨2, ![E, 1]⟩ 32)
    (weight : (⟨1, ![E]⟩ : Shape).Idx → EReal) (z : EReal) (bias : (⟨1, ![C]⟩ : Shape).Idx → EReal) (n : Fin N) (c : Fin C) : EReal :=
  (z + ∑ e : Fin E, if (dstIdx (ix2 e 0)).toInt = (n.val : Int)
      then P (ix2 (clampRow N hN (srcIdx (ix2 e 0))) c) * weight (ix1 e) else 0) + bias (ix1 c)

/-- Column locality: two aggregations over the same edges, of tables and biases that agree on one column each, agree
    on those columns — whatever the two widths are. -/
theorem aggregateAt_congr {C' : Nat} (hN : 0 < N) (P : (⟨2, ![N, C]⟩ : Shape).Idx → EReal) (P' : (⟨2, ![N, C']⟩ : Shape).Idx → EReal)
    (srcIdx dstIdx : IVec ⟨2, ![E, 1]⟩ 32) (weight : (⟨1, ![E]⟩ : Shape).Idx → EReal) (z : EReal)
    (bias : (⟨1, ![C]⟩ : Shape).Idx → EReal) (bias' : (⟨1, ![C']⟩ : Shape).Idx → EReal) (n : Fin N) (c : Fin C) (c' : Fin C')
    (hP : ∀ r : Fin N, P (ix2 r c) = P' (ix2 r c')) (hb : bias (ix1 c) = bias' (ix1 c')) :
    aggregateAt hN P srcIdx dstIdx weight z bias n c = aggregateAt hN P' srcIdx dstIdx weight z bias' n c' := by
  unfold aggregateAt
  rw [hb]
  refine congrArg (fun s => (z + s) + bias' (ix1 c')) ?_
  refine Finset.sum_congr rfl fun e _ => ?_
  rw [hP]

/-- A weight laid along a column `[E, 1]` and spread over the columns of `[E, C]` reads, at `(e, c)`, the weight of
    edge `e`. -/
theorem spread_weight_apply {α : Type}
    (hcol : (⟨1, ![E]⟩ : Shape).BroadcastsInDim ⟨2, ![E, 1]⟩ ![0])
    (hwide : (⟨2, ![E, 1]⟩ : Shape).BroadcastsInDim ⟨2, ![E, C]⟩ ![0, 1])
    (weight : (⟨1, ![E]⟩ : Shape).Idx → α) (e : Fin E) (c : Fin C) :
    broadcastInDim ⟨2, ![E, C]⟩ ![0, 1] hwide (broadcastInDim ⟨2, ![E, 1]⟩ ![0] hcol weight) (ix2 e c) = weight (ix1 e) := by
  have he := e.isLt
  rw [broadcastInDim_apply ![0, 1] hwide _ (ix2 e c) (ix2 e (0 : Fin 1)) (fun a => by
    match a with
    | ⟨0, _⟩ => show e.val = if E = 1 then 0 else e.val; split <;> omega
    | ⟨1, _⟩ => show 0 = if (1 : Nat) = 1 then 0 else c.val; rw [if_pos rfl])]
  exact broadcastInDim_apply ![0] hcol weight (ix2 e (0 : Fin 1)) (ix1 e) (fun a => by
    match a with
    | ⟨0, _⟩ => show e.val = if E = 1 then 0 else e.val; split <;> omega)

/-- A bias laid along a row `[1, C]` and spread over the rows of `[N, C]` reads, at `(n, c)`, the bias of column `c`. -/
theorem spread_bias_apply {α : Type}
    (hrow : (⟨1, ![C]⟩ : Shape).BroadcastsInDim ⟨2, ![1, C]⟩ ![1])
    (hrows : (⟨2, ![1, C]⟩ : Shape).BroadcastsInDim ⟨2, ![N, C]⟩ ![0, 1])
    (bias : (⟨1, ![C]⟩ : Shape).Idx → α) (n : Fin N) (c : Fin C) :
    broadcastInDim ⟨2, ![N, C]⟩ ![0, 1] hrows (broadcastInDim ⟨2, ![1, C]⟩ ![1] hrow bias) (ix2 n c) = bias (ix1 c) := by
  have hc := c.isLt
  rw [broadcastInDim_apply ![0, 1] hrows _ (ix2 n c) (ix2 (0 : Fin 1) c) (fun a => by
    match a with
    | ⟨0, _⟩ => show 0 = if (1 : Nat) = 1 then 0 else n.val; rw [if_pos rfl]
    | ⟨1, _⟩ => show c.val = if C = 1 then 0 else c.val; split <;> omega)]
  exact broadcastInDim_apply ![1] hrow bias (ix2 (0 : Fin 1) c) (ix1 c) (fun a => by
    match a with
    | ⟨0, _⟩ => show c.val = if C = 1 then 0 else c.val; split <;> omega)

/-- THE READING. The chain of host operations — a table of one scalar spread over `[N, C]`, the row gather, the weights
    spread over the columns, the product, the row scatter-add, the bias spread over the rows, the sum — at entry
    `(n, c)` is `aggregateAt` from the scalar's value. -/
theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hfill : (⟨0, ![]⟩ : Shape).BroadcastsInDim ⟨2, ![N, C]⟩ ![])
    (hcol : (⟨1, ![E]⟩ : Shape).BroadcastsInDim ⟨2, ![E, 1]⟩ ![0])
    (hwide : (⟨2, ![E, 1]⟩ : Shape).BroadcastsInDim ⟨2, ![E, C]⟩ ![0, 1])
    (hrow : (⟨1, ![C]⟩ : Shape).BroadcastsInDim ⟨2, ![1, C]⟩ ![1])
    (hrows : (⟨2, ![1, C]⟩ : Shape).BroadcastsInDim ⟨2, ![N, C]⟩ ![0, 1])
    (P : FVec Ideal ⟨2, ![N, C]⟩ .f32) (srcIdx dstIdx : IVec ⟨2, ![E, 1]⟩ 32) (weight : FVec Ideal ⟨1, ![E]⟩ .f32)
    (z : FVec Ideal ⟨0, ![]⟩ .f32) (bias : FVec Ideal ⟨1, ![C]⟩ .f32) (n : Fin N) (c : Fin C) :
    addf
        (Host.scatterAdd (rowScatterDims N E C wfs) (broadcastInDim ⟨2, ![N, C]⟩ ![] hfill z) dstIdx
          (mulf (Host.gather (rowGatherDims N E C wfg) P srcIdx)
            (broadcastInDim ⟨2, ![E, C]⟩ ![0, 1] hwide (broadcastInDim ⟨2, ![E, 1]⟩ ![0] hcol weight))))
        (broadcastInDim ⟨2, ![N, C]⟩ ![0, 1] hrows (broadcastInDim ⟨2, ![1, C]⟩ ![1] hrow bias)) (ix2 n c)
      = aggregateAt hN P srcIdx dstIdx weight (z ix0) bias n c := by
  rw [addf_apply, spread_bias_apply hrow hrows bias n c]
  show Ideal.hostScatterAdd (rowScatterDims N E C wfs) _ dstIdx _ (ix2 n c) + _ = _
  rw [rowScatterAdd_apply wfs]
  unfold aggregateAt
  refine congrArg (· + bias (ix1 c)) ?_
  have hz : broadcastInDim ⟨2, ![N, C]⟩ ![] hfill z (ix2 n c) = z ix0 :=
    broadcastInDim_apply ![] hfill z (ix2 n c) ix0 (fun a => a.elim0)
  rw [hz]
  refine congrArg (z ix0 + ·) ?_
  refine Finset.sum_congr rfl fun e _ => ?_
  by_cases hrow' : (dstIdx (ix2 e 0)).toInt = (n.val : Int)
  · rw [if_pos hrow', if_pos hrow', mulf_apply, rowGather_apply hN wfg, spread_weight_apply hcol hwide weight e c]
    rfl
  · rw [if_neg hrow', if_neg hrow']

end Idealize.ShloMosaic.GraphAggregate

end
-- ==== Proof.LibAggregateProject.lean ====
/-
  Aggregating neighbours' rows and projecting them through a weight column commute, on the extended reals.

  A node sums, over the edges e landing on it, the row H e of its neighbour scaled by the neighbour's factor so e;
  the sum is scaled by the node's own factor si and projected through a column W:

      Σ_k ((Σ_e H e k · so e) · si) · W k.

  Projecting each neighbour's row first, scaling the projection by so e, summing over the edges and scaling by si gives

      si · Σ_e (Σ_k H e k · W k) · so e.

  Over the reals the two are one number.  On the extended reals a factor distributes over a sum only under conditions:
  a nonnegative real factor (so e, si) distributes over every sum, and any factor (W k) distributes over a sum of
  nonnegative terms.  So the law holds when the scales are nonnegative reals and every entry of H is nonnegative,
  whatever W is; no entry need be finite.
-/
import Mathlib.Data.EReal.Inv
import Mathlib.Algebra.BigOperators.Group.Finset.Basic
import Mathlib.Algebra.Order.BigOperators.Group.Finset

noncomputable section

open scoped BigOperators

namespace Cert.LibAggregateProject

/-- An extended real that is a nonnegative real number. -/
def IsNNReal (x : EReal) : Prop := ∃ r : ℝ, 0 ≤ r ∧ x = (r : EReal)

theorem IsNNReal.nonneg {x : EReal} (h : IsNNReal x) : 0 ≤ x := by
  obtain ⟨r, hr, rfl⟩ := h; exact EReal.coe_nonneg.mpr hr

/-- A nonnegative real factor goes inside any finite sum of extended reals. -/
theorem sum_mul_nnreal {ι : Type*} (S : Finset ι) (a : ι → EReal) {p : EReal} (hp : IsNNReal p) :
    (∑ j ∈ S, a j) * p = ∑ j ∈ S, a j * p := by
  classical
  obtain ⟨r, hr, rfl⟩ := hp
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- Any factor goes inside a finite sum of nonnegative extended reals. -/
theorem sum_nonneg_mul {ι : Type*} (S : Finset ι) (a : ι → EReal) (ha : ∀ j, 0 ≤ a j) (w : EReal) :
    (∑ j ∈ S, a j) * w = ∑ j ∈ S, a j * w := by
  classical
  induction S using Finset.induction_on with
  | empty => simp
  | insert k S hk ih =>
    rw [Finset.sum_insert hk, Finset.sum_insert hk,
      EReal.right_distrib_of_nonneg (ha k) (Finset.sum_nonneg fun j _ => ha j), ih]

/-- THE LAW: aggregate-then-project equals project-then-aggregate. -/
theorem aggregate_project {ι κ : Type*} (S : Finset ι) (K : Finset κ) (H : ι → κ → EReal) (hH : ∀ e k, 0 ≤ H e k)
    (so : ι → EReal) (hso : ∀ e, IsNNReal (so e)) {si : EReal} (hsi : IsNNReal si) (W : κ → EReal) :
    ∑ k ∈ K, ((∑ e ∈ S, H e k * so e) * si) * W k = si * ∑ e ∈ S, (∑ k ∈ K, H e k * W k) * so e := by
  have hL : ∀ k, ((∑ e ∈ S, H e k * so e) * si) * W k = ∑ e ∈ S, ((H e k * so e) * si) * W k := fun k => by
    rw [sum_mul_nnreal S _ hsi,
      sum_nonneg_mul S _ (fun e => mul_nonneg (mul_nonneg (hH e k) (hso e).nonneg) hsi.nonneg)]
  have hR : ∀ e, ((∑ k ∈ K, H e k * W k) * so e) * si = ∑ k ∈ K, ((H e k * W k) * so e) * si := fun e => by
    rw [sum_mul_nnreal K _ (hso e), sum_mul_nnreal K _ hsi]
  rw [Finset.sum_congr rfl fun k _ => hL k, mul_comm si, sum_mul_nnreal S _ hsi,
    Finset.sum_congr rfl fun e _ => hR e, Finset.sum_comm]
  refine Finset.sum_congr rfl fun e _ => Finset.sum_congr rfl fun k _ => ?_
  rw [mul_right_comm (H e k) (so e) si, mul_right_comm (H e k * si) (so e) (W k), mul_right_comm (H e k) si (W k),
    mul_right_comm (H e k * W k) si (so e)]

end Cert.LibAggregateProject

end
-- ==== Proof.LibNodeScale.lean ====
/-
  A node's own factor taken out of its sum over incoming edges.

  In a graph convolution with symmetric normalisation every edge e from a source s(e) to a target t(e) carries the
  weight D(s(e)) · D(t(e)), where D is a nonnegative real factor per node. Entry (n, c) of the aggregated table is

      (0 + Σ over the edges e with t(e) = n of P(s(e), c) · (D(s(e)) · D(t(e)))) + bias(c).

  Every edge in that sum has target n, so its target factor is D(n), and a nonnegative real factor passes out of any
  finite sum of extended reals (it never turns an infinity round). Hence the entry is also

      D(n) · (0 + Σ over the edges e with t(e) = n of P(s(e), c) · D(s(e))) + bias(c):

  scale the source rows once, sum them, and scale the finished sum by the node's own factor. Nothing here needs a finite
  entry of P or of the bias. The target column is read twice: by the scatter (signed, not clamped: an edge whose target
  is not a row is dropped) and by a gather (signed and clamped); the two index arrays need agree only where the first
  names a row.

  Also here: the scatter-add of gathered rows read at an entry, and the host chain "column factor spread over the
  columns, times that scatter-add, plus a bias row spread over the rows" as the second form. The extents are variables.
-/
import proofs.«164936_j60593398612125_2_alg».proof.Proof.LibGraphAggregate
import proofs.«164936_j60593398612125_2_alg».proof.Proof.LibAggregateProject

noncomputable section

open scoped BigOperators

namespace Idealize.ShloMosaic.NodeScale

open Idealize.ShloMosaic Idealize.ShloMosaic.ValueIdx Idealize.ShloMosaic.SegmentSum Idealize.ShloMosaic.RowScatter
open Idealize.ShloMosaic.GraphAggregate Cert.LibAggregateProject

variable {N E C : Nat}

/-- The weight of edge `e`: the source's factor times the target's, both indices read signed and clamped. -/
def edgeWeight (hN : 0 < N) (D : (⟨1, ![N]⟩ : Shape).Idx → EReal) (srcIdx dstIdx : IVec ⟨2, ![E, 1]⟩ 32) :
    (⟨1, ![E]⟩ : Shape).Idx → EReal :=
  fun e => D (ix1 (clampRow N hN (srcIdx (ix2 (e 0) 0)))) * D (ix1 (clampRow N hN (dstIdx (ix2 (e 0) 0))))

/-- The sum over the edges landing on `n` of the source's entry in column `c` scaled by the source's factor. -/
def sourceSum (hN : 0 < N) (D : (⟨1, ![N]⟩ : Shape).Idx → EReal) (P : (⟨2, ![N, C]⟩ : Shape).Idx → EReal)
    (srcIdx dstIdx : IVec ⟨2, ![E, 1]⟩ 32) (n : Fin N) (c : Fin C) : EReal :=
  ∑ e : Fin E, if (dstIdx (ix2 e 0)).toInt = (n.val : Int)
    then P (ix2 (clampRow N hN (srcIdx (ix2 e 0))) c) * D (ix1 (clampRow N hN (srcIdx (ix2 e 0)))) else 0

/-- Entry `(n, c)` in the second form: the node's factor times the sum of the scaled source rows, plus the bias. -/
def scaledAt (hN : 0 < N) (D : (⟨1, ![N]⟩ : Shape).Idx → EReal) (P : (⟨2, ![N, C]⟩ : Shape).Idx → EReal)
    (srcIdx dstIdx : IVec ⟨2, ![E, 1]⟩ 32) (bias : (⟨1, ![C]⟩ : Shape).Idx → EReal) (n : Fin N) (c : Fin C) : EReal :=
  D (ix1 n) * (0 + sourceSum hN D P srcIdx dstIdx n c) + bias (ix1 c)

/-- The second form reads column `c` of the table and entry `c` of the bias only, whatever the widths. -/
theorem scaledAt_congr {C' : Nat} (hN : 0 < N) (D : (⟨1, ![N]⟩ : Shape).Idx → EReal)
    (P : (⟨2, ![N, C]⟩ : Shape).Idx → EReal) (P' : (⟨2, ![N, C']⟩ : Shape).Idx → EReal)
    (srcIdx dstIdx : IVec ⟨2, ![E, 1]⟩ 32) (bias : (⟨1, ![C]⟩ : Shape).Idx → EReal) (bias' : (⟨1, ![C']⟩ : Shape).Idx → EReal)
    (n : Fin N) (c : Fin C) (c' : Fin C') (hP : ∀ r : Fin N, P (ix2 r c) = P' (ix2 r c')) (hb : bias (ix1 c) = bias' (ix1 c')) :
    scaledAt hN D P srcIdx dstIdx bias n c = scaledAt hN D P' srcIdx dstIdx bias' n c' := by
  unfold scaledAt sourceSum
  rw [hb]
  refine congrArg (fun s => D (ix1 n) * (0 + s) + bias' (ix1 c')) ?_
  refine Finset.sum_congr rfl fun e _ => ?_
  rw [hP]

/-- THE LAW: the aggregation with edge weights `D(source) · D(target)` is the second form. -/
theorem aggregateAt_eq_scaledAt (hN : 0 < N) (D : (⟨1, ![N]⟩ : Shape).Idx → EReal) (hD : ∀ v, IsNNReal (D v))
    (P : (⟨2, ![N, C]⟩ : Shape).Idx → EReal) (srcIdx dstW dstR : IVec ⟨2, ![E, 1]⟩ 32)
    (hwrap : ∀ e : Fin E, 0 ≤ (dstR (ix2 e 0)).toInt → (dstR (ix2 e 0)).toInt < (N : Int) → dstW (ix2 e 0) = dstR (ix2 e 0))
    (bias : (⟨1, ![C]⟩ : Shape).Idx → EReal) (n : Fin N) (c : Fin C) :
    aggregateAt hN P srcIdx dstR (edgeWeight hN D srcIdx dstW) 0 bias n c = scaledAt hN D P srcIdx dstR bias n c := by
  unfold aggregateAt scaledAt sourceSum
  refine congrArg (· + bias (ix1 c)) ?_
  rw [zero_add, zero_add, mul_comm, sum_mul_nnreal _ _ (hD (ix1 n))]
  refine Finset.sum_congr rfl fun e _ => ?_
  by_cases h : (dstR (ix2 e 0)).toInt = (n.val : Int)
  · rw [if_pos h, if_pos h]
    have hlt : n.val < N := n.isLt
    have hW : dstW (ix2 e 0) = dstR (ix2 e 0) :=
      hwrap e (by rw [h]; exact Int.natCast_nonneg _) (by rw [h]; exact_mod_cast hlt)
    have hclamp : clampRow N hN (dstW (ix2 e 0)) = n := by
      apply Fin.ext
      show min (dstW (ix2 e 0)).toInt.toNat (N - 1) = n.val
      rw [hW, h, Int.toNat_natCast]
      omega
    show P _ * (D _ * D (ix1 (clampRow N hN (dstW (ix2 e 0))))) = _
    rw [hclamp, mul_assoc]
    rfl
  · rw [if_neg h, if_neg h, zero_mul]

/-- A scatter-add of gathered rows into a table of one scalar, at entry `(n, c)`: the scalar plus the sum over the
    edges landing on `n` of the gathered table's entry at the edge's source and column `c`. -/
theorem scatterGather_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hfill : (⟨0, ![]⟩ : Shape).BroadcastsInDim ⟨2, ![N, C]⟩ ![])
    (Q : FVec Ideal ⟨2, ![N, C]⟩ .f32) (srcIdx dstIdx : IVec ⟨2, ![E, 1]⟩ 32) (z : FVec Ideal ⟨0, ![]⟩ .f32) (n : Fin N) (c : Fin C) :
    Host.scatterAdd (rowScatterDims N E C wfs) (broadcastInDim ⟨2, ![N, C]⟩ ![] hfill z) dstIdx
        (Host.gather (rowGatherDims N E C wfg) Q srcIdx) (ix2 n c)
      = z ix0 + ∑ e : Fin E, if (dstIdx (ix2 e 0)).toInt = (n.val : Int)
          then Q (ix2 (clampRow N hN (srcIdx (ix2 e 0))) c) else 0 := by
  show Ideal.hostScatterAdd (rowScatterDims N E C wfs) _ dstIdx _ (ix2 n c) = _
  rw [rowScatterAdd_apply wfs]
  have hz : broadcastInDim ⟨2, ![N, C]⟩ ![] hfill z (ix2 n c) = z ix0 :=
    broadcastInDim_apply ![] hfill z (ix2 n c) ix0 (fun a => a.elim0)
  rw [hz]
  refine congrArg (z ix0 + ·) ?_
  refine Finset.sum_congr rfl fun e _ => ?_
  by_cases h : (dstIdx (ix2 e 0)).toInt = (n.val : Int)
  · rw [if_pos h, if_pos h, rowGather_apply hN wfg]
    rfl
  · rw [if_neg h, if_neg h]

/-- The scatter-add of the gathered rows of a table `P` scaled row by row by `D`, from a zero scalar, at `(n, c)`. -/
theorem scatterGather_scaled (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hfill : (⟨0, ![]⟩ : Shape).BroadcastsInDim ⟨2, ![N, C]⟩ ![])
    (D : (⟨1, ![N]⟩ : Shape).Idx → EReal) (P Q : FVec Ideal ⟨2, ![N, C]⟩ .f32)
    (hQ : ∀ (r : Fin N) (k : Fin C), Q (ix2 r k) = P (ix2 r k) * D (ix1 r))
    (srcIdx dstIdx : IVec ⟨2, ![E, 1]⟩ 32) (z : FVec Ideal ⟨0, ![]⟩ .f32) (hz : z ix0 = 0) (n : Fin N) (c : Fin C) :
    Host.scatterAdd (rowScatterDims N E C wfs) (broadcastInDim ⟨2, ![N, C]⟩ ![] hfill z) dstIdx
        (Host.gather (rowGatherDims N E C wfg) Q srcIdx) (ix2 n c)
      = 0 + sourceSum hN D P srcIdx dstIdx n c := by
  rw [scatterGather_apply hN wfs wfg hfill Q srcIdx dstIdx z n c, hz]
  unfold sourceSum
  refine congrArg (0 + ·) ?_
  refine Finset.sum_congr rfl fun e _ => ?_
  rw [hQ]

end Idealize.ShloMosaic.NodeScale

end
-- ==== Proof.RefIndex.lean ====
/-
  The reference's index arrays read at an index.

  The column form of an index array holds the array's entries. A target index that names a row is not negative, so
  the wrap (which adds 50000 to negative indices only) leaves it alone: the wrapped target column and the raw one agree
  wherever the raw one names a row.
-/
import proofs.«164936_j60593398612125_2_alg».proof.Proof.RefTerms
import Idealize.ShloMosaic.Lib.ValueIdx
import Idealize.ShloMosaic.Lib.Pipeline.Value
import proofs.«164936_j60593398612125_2_alg».proof.Proof.LibSegmentSum
import proofs.«164936_j60593398612125_2_alg».proof.Proof.LibRowScatter
import proofs.«164936_j60593398612125_2_alg».proof.Proof.LibGraphAggregate
import proofs.«164936_j60593398612125_2_alg».proof.Proof.LibNodeScale

noncomputable section

open scoped BigOperators

namespace Cert.ReferenceIdeal.RefValue

open Cert.ReferenceIdeal Cert.ReferenceIdeal.Gen Idealize.ShloMosaic Idealize.ShloMosaic.ValueIdx
open Idealize.ShloMosaic.SegmentSum Idealize.ShloMosaic.RowScatter Idealize.ShloMosaic.GraphAggregate Idealize.ShloMosaic.NodeScale
open Cert.LibAggregateProject

theorem rows_pos : 0 < 50000 := by decide

/-- The column form of an index array reads, at `(k, 0)`, the array at `k`. -/
theorem asCol_apply (v : IVec S850000 32) (k : Fin 850000) :
    asCol v (ix2 k (0 : Fin 1)) = v (ix1 k) := by
  unfold asCol
  exact broadcastInDim_apply ![0] bcast_S850000_S850000x1_0 v (ix2 k (0 : Fin 1)) (ix1 k) (fun a => by
    match a with
    | ⟨0, _⟩ => show k.val = if (850000 : Nat) = 1 then 0 else k.val; rw [if_neg (by decide)])

/-- An index that is not negative is left alone by the wrap. -/
theorem wrapIdx_of_nonneg (v : IVec S850000 32) (k : Fin 850000) (h : 0 ≤ (v (ix1 k)).toInt) :
    wrapIdx v (ix1 k) = v (ix1 k) := by
  unfold wrapIdx
  rw [select_apply]
  have hc : cmpi .slt v (broadcastInDim S850000 ![] bcast_S_S850000 (constantI S_ 32 0#32)) (ix1 k) = 0#1 := by
    show IntOp.cmpi .slt (v (ix1 k)) (broadcastInDim S850000 ![] bcast_S_S850000 (constantI S_ 32 0#32) (ix1 k)) = 0#1
    rw [broadcastInDim_apply ![] bcast_S_S850000 (constantI S_ 32 0#32) (ix1 k) ix0 (fun a => a.elim0)]
    show BitVec.ofBool ((v (ix1 k)).slt 0#32) = 0#1
    have : (v (ix1 k)).slt 0#32 = false := by
      rw [BitVec.slt]
      simp only [decide_eq_false_iff_not, not_lt]
      simpa using h
    rw [this]; rfl
  rw [hc, select_zero]

/-- Where the raw target column names a row, the wrapped one agrees with it. -/
theorem wrapped_agrees (e : IVec S2x800000 32) (k : Fin 850000)
    (h0 : 0 ≤ (asCol (dstIdx e) (ix2 k (0 : Fin 1))).toInt) (h1 : (asCol (dstIdx e) (ix2 k (0 : Fin 1))).toInt < (50000 : Int)) :
    asCol (wrapIdx (dstIdx e)) (ix2 k (0 : Fin 1)) = asCol (dstIdx e) (ix2 k (0 : Fin 1)) := by
  rw [asCol_apply] at h0 ⊢
  rw [asCol_apply]
  exact wrapIdx_of_nonneg _ k h0

end Cert.ReferenceIdeal.RefValue

end
-- ==== Proof.LibBatchNorm.lean ====
/-
  General lemmas: batch normalisation followed by a rectifier, on the extended reals, in two arrangements.

  A finite family h of values is normalised with its own mean m = (∑ h) / n and variance v, scaled by γ, shifted by β and
  clipped below at zero. The first arrangement computes the variance as the mean of squares minus the square of the mean,
  clipped below at zero, folds γ and the inverse root into one scale s = γ · (v + ε)^(-1/2) and the mean into one shift
  β − m · s, and returns max (x · s + (β − m · s)) 0. The second computes the variance as the mean of the squared
  deviations and returns max ((x − m) · (v + ε)^(-1/2) · γ + β) 0. When every value, γ, β and ε are real numbers, ε is
  positive and n is the (positive) number of values, the two agree: over the reals the two variances are one number
  (the sum of (h − m)² is the sum of h² minus n · m², because the sum of h is n · m), it is nonnegative, so the clip does
  nothing, its sum with ε is positive, so the inverse root is a real number, and the rest is ring arithmetic. On the
  extended reals the law is false at the infinities (distributivity fails), hence the hypotheses.

  Also here: the predicate "is a real number" on extended reals with its closure under sums, products and finite sums,
  the coercion of a finite real sum, and the inverse root of a positive real.
  Nothing here mentions a program.
-/
import Idealize.ShloMosaic.PureOps.Ideal.Laws

noncomputable section

namespace Cert.LibBatchNorm

open Idealize.ShloMosaic

/-- An extended real that is a real number. -/
def IsReal (x : EReal) : Prop := ∃ r : ℝ, x = (r : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- An extended real whose absolute value is below +∞ is a real number. -/
theorem isReal_of_abs_lt_top {x : EReal} (h : max x (-x) < ⊤) : IsReal x := by
  induction x using EReal.rec with
  | bot => simp at h
  | top => simp at h
  | coe r => exact ⟨r, rfl⟩

/-- The inverse square root of a positive real is the real inverse root. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg (ne_of_gt h)]

/-- The first arrangement: variance from the raw moments s = ∑ h and q = ∑ h², clipped at zero; one scale, one shift. -/
def foldedNorm (x s q n γ β ε : EReal) : EReal :=
  max (x * (γ * Ideal.rsqrt (max (Ideal.div q n - Ideal.div s n * Ideal.div s n) 0 + ε))
      + (β - Ideal.div s n * (γ * Ideal.rsqrt (max (Ideal.div q n - Ideal.div s n * Ideal.div s n) 0 + ε)))) 0

/-- The second arrangement: centre, scale by the inverse root of the mean squared deviation plus ε, then γ and β. -/
def centredNorm {ι : Type*} [Fintype ι] (h : ι → EReal) (n γ β ε : EReal) (e : ι) : EReal :=
  max ((h e - Ideal.div (∑ i, h i) n)
        * Ideal.rsqrt (Ideal.div (∑ i, (h i - Ideal.div (∑ i, h i) n) * (h i - Ideal.div (∑ i, h i) n)) n + ε) * γ + β) 0

/-- Over the reals the mean squared deviation is the mean of squares minus the squared mean. -/
theorem real_variance {ι : Type*} [Fintype ι] (f : ι → ℝ) (n : ℝ) (hn : n = (Fintype.card ι : ℝ)) (h0 : n ≠ 0) :
    (∑ i, (f i - (∑ i, f i) * (1 / n)) * (f i - (∑ i, f i) * (1 / n))) * (1 / n)
      = (∑ i, f i * f i) * (1 / n) - (∑ i, f i) * (1 / n) * ((∑ i, f i) * (1 / n)) := by
  have e : ∀ i, (f i - (∑ i, f i) * (1 / n)) * (f i - (∑ i, f i) * (1 / n))
      = f i * f i - 2 * ((∑ i, f i) * (1 / n)) * f i + (∑ i, f i) * (1 / n) * ((∑ i, f i) * (1 / n)) := fun i => by ring
  rw [Finset.sum_congr rfl fun i _ => e i, Finset.sum_add_distrib, Finset.sum_sub_distrib, ← Finset.mul_sum,
    Finset.sum_const, Finset.card_univ, nsmul_eq_mul, ← hn]
  field_simp
  ring

/-- The two arrangements agree on real data. -/
theorem foldedNorm_eq_centredNorm {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ) (hε : ε = (ε' : EReal))
    (hε' : 0 < ε') (e : ι) :
    foldedNorm (h e) (∑ i, h i) (∑ i, h i * h i) (n : EReal) γ β ε = centredNorm h (n : EReal) γ β ε e := by
  choose f hf using hh
  obtain ⟨g, rfl⟩ := hγ
  obtain ⟨b, rfl⟩ := hβ
  subst hε
  have hn0 : n ≠ 0 := ne_of_gt hpos
  have hfun : h = fun i => (f i : EReal) := funext hf
  subst hfun
  unfold foldedNorm centredNorm
  simp only [Ideal.div_coe hn0]
  have hs : (∑ i, (f i : EReal)) = ((∑ i, f i : ℝ) : EReal) := (coe_sum _ _).symm
  have hq : (∑ i, (f i : EReal) * (f i : EReal)) = ((∑ i, f i * f i : ℝ) : EReal) := by
    rw [coe_sum]; exact Finset.sum_congr rfl fun i _ => (EReal.coe_mul _ _).symm
  rw [hs, hq]
  have hd : (∑ i, ((f i : EReal) - ((∑ i, f i : ℝ) : EReal) * ((1 / n : ℝ) : EReal)) * ((f i : EReal) - ((∑ i, f i : ℝ) : EReal) * ((1 / n : ℝ) : EReal)))
      = ((∑ i, (f i - (∑ i, f i) * (1 / n)) * (f i - (∑ i, f i) * (1 / n)) : ℝ) : EReal) := by
    refine ((coe_sum Finset.univ fun i => (f i - (∑ i, f i) * (1 / n)) * (f i - (∑ i, f i) * (1 / n))).trans
      (Finset.sum_congr rfl fun i _ => ?_)).symm
    rw [EReal.coe_mul, EReal.coe_sub, EReal.coe_mul]
  rw [hd]
  set S : ℝ := ∑ i, f i with hS
  set Q : ℝ := ∑ i, f i * f i with hQ
  set D : ℝ := ∑ i, (f i - S * (1 / n)) * (f i - S * (1 / n)) with hD
  have hvar : D * (1 / n) = Q * (1 / n) - S * (1 / n) * (S * (1 / n)) := real_variance f n hn hn0
  have hD0 : 0 ≤ D := Finset.sum_nonneg fun i _ => mul_self_nonneg _
  have hv0 : 0 ≤ D * (1 / n) := mul_nonneg hD0 (by positivity)
  have hmax : max (((Q : ℝ) : EReal) * ((1 / n : ℝ) : EReal) - ((S : ℝ) : EReal) * ((1 / n : ℝ) : EReal) * (((S : ℝ) : EReal) * ((1 / n : ℝ) : EReal))) 0
      = ((D * (1 / n) : ℝ) : EReal) := by
    rw [← EReal.coe_mul, ← EReal.coe_mul, ← EReal.coe_mul, ← EReal.coe_sub, ← hvar]
    exact max_eq_left (EReal.coe_nonneg.mpr hv0)
  rw [hmax, ← EReal.coe_mul D, ← EReal.coe_add, rsqrt_coe_pos (by linarith : 0 < D * (1 / n) + ε')]
  simp only [← EReal.coe_mul, ← EReal.coe_sub, ← EReal.coe_add]
  congr 2
  ring

end Cert.LibBatchNorm

end
-- ==== Proof.LibSymNorm.lean ====
/-
  General lemmas: a sum weighted on both sides by an inverse square root, on the extended reals.

  For a row of real weights a_j, real values x_j, real column scales q_j and a real row scale p,

      Σ_j ((a_j · p) · q_j) · x_j = (Σ_j a_j · (x_j · q_j)) · p:

  the row scale moves out of the sum.  On the extended reals this needs every entry to be a real number, since a factor
  distributes over a sum only then; commuting and re-associating the factors needs nothing.

  The scale in question is the guarded inverse root of a degree s: s^(-1/2) where s is positive and zero elsewhere.
  For a positive real s the power s^(-1/2) is the inverse of the square root, so the guarded power and the guarded inverse
  root are one function on real numbers, and its value is a real number.  The float word 0xBF000000 is the exponent -1/2.

  A comparison bit that selects between two values is the corresponding if-then-else.
-/
import Idealize.ShloMosaic.PureOps.Ideal.Laws
import proofs.«164936_j60593398612125_2_alg».proof.Proof.LibBatchNorm

noncomputable section

open scoped BigOperators

namespace Cert.LibSymNorm

open Idealize.ShloMosaic Cert.LibBatchNorm

/-- The float word 0xBF000000 denotes the real number -1/2. -/
theorem ofBits_neg_half : Ideal.ofBits .f32 0xBF000000#32 = ((-(1 / 2) : ℝ) : EReal) := by
  simp [Ideal.ofBits, Ideal.ieee, -EReal.coe_mul]
  norm_num

/-- For a positive real the power -1/2 is the inverse square root. -/
theorem pow_neg_half_of_pos {r : ℝ} (h : 0 < r) :
    Ideal.pow (r : EReal) ((-(1 / 2) : ℝ) : EReal) = Ideal.rsqrt (r : EReal) := by
  rw [rsqrt_coe_pos h, Ideal.pow_coe_coe]
  congr 1
  show r ^ (-(1 / 2) : ℝ) = (Real.sqrt r)⁻¹
  rw [Real.rpow_neg h.le, Real.sqrt_eq_rpow]

/-- On a real number the guarded power -1/2 is the guarded inverse square root. -/
theorem guarded_pow_eq_rsqrt {s : EReal} (hs : IsReal s) :
    (if 0 < s then Ideal.pow s ((-(1 / 2) : ℝ) : EReal) else 0) = if 0 < s then Ideal.rsqrt s else 0 := by
  obtain ⟨r, rfl⟩ := hs
  by_cases h : (0 : EReal) < (r : EReal)
  · rw [if_pos h, if_pos h, pow_neg_half_of_pos (EReal.coe_pos.mp h)]
  · rw [if_neg h, if_neg h]

/-- The guarded inverse square root of a real number is a real number. -/
theorem isReal_guarded_rsqrt {s : EReal} (hs : IsReal s) : IsReal (if 0 < s then Ideal.rsqrt s else 0) := by
  obtain ⟨r, rfl⟩ := hs
  by_cases h : (0 : EReal) < (r : EReal)
  · rw [if_pos h, rsqrt_coe_pos (EReal.coe_pos.mp h)]
    exact isReal_coe _
  · rw [if_neg h]
    exact ⟨0, EReal.coe_zero.symm⟩

/-- Selecting by the bit of the comparison "y < x" is the if-then-else on that comparison. -/
theorem select_cmp_ogt {α : Type} (x y : EReal) (a b : α) :
    Scalar.select (Ideal.cmp .ogt x y) a b = if y < x then a else b := by
  unfold Scalar.select Ideal.cmp
  by_cases h : y < x
  · simp [h]
  · simp [h]

/-- The row scale moves out of a sum of real terms. -/
theorem scaled_sum_law {ι : Type*} (s : Finset ι) (a x q : ι → EReal) (p : EReal)
    (ha : ∀ j, IsReal (a j)) (hx : ∀ j, IsReal (x j)) (hq : ∀ j, IsReal (q j)) (hp : IsReal p) :
    ∑ j ∈ s, ((a j * p) * q j) * x j = (∑ j ∈ s, a j * (x j * q j)) * p := by
  choose a' ha' using ha
  choose x' hx' using hx
  choose q' hq' using hq
  obtain ⟨p', rfl⟩ := hp
  simp only [ha', hx', hq', ← EReal.coe_mul]
  rw [← coe_sum, ← coe_sum, ← EReal.coe_mul, Finset.sum_mul]
  congr 1
  exact Finset.sum_congr rfl fun j _ => by ring

end Cert.LibSymNorm

end
-- ==== Proof.LibDegreeScale.lean ====
/-
  The inverse square root of a clamped degree is a nonnegative real number.

  A node's degree is counted by an accumulating scatter of ones into zeros: entry i of the result is the number of
  updates landing on i, a natural number whatever the start indices are.  Clamped below at one it is a real number
  at least 1, and its power -1/2 is the real number 1/sqrt(degree), which is nonnegative.  The float words are
  0x3F800000 (one), 0x00000000 (zero) and 0xBF000000 (minus one half).
-/
import proofs.«164936_j60593398612125_2_alg».proof.Proof.LibSymNorm
import proofs.«164936_j60593398612125_2_alg».proof.Proof.LibAggregateProject

noncomputable section

open scoped BigOperators

namespace Cert.LibDegreeScale

open Idealize.ShloMosaic Cert.LibBatchNorm Cert.LibSymNorm Cert.LibAggregateProject

/-- The float word 0x3F800000 denotes the real number 1. -/
theorem ofBits_one : Ideal.ofBits .f32 0x3F800000#32 = ((1 : ℝ) : EReal) := by
  simp [Ideal.ofBits, Ideal.ieee, -EReal.coe_mul]
  norm_num

/-- The coercion of reals into the extended reals commutes with the maximum. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The power -1/2 of a positive real is a nonnegative real. -/
theorem isNNReal_pow_neg_half {r : ℝ} (hr : 0 < r) :
    IsNNReal (Ideal.pow (r : EReal) (Ideal.ofBits .f32 0xBF000000#32)) := by
  rw [ofBits_neg_half, pow_neg_half_of_pos hr, rsqrt_coe_pos hr]
  exact ⟨(Real.sqrt r)⁻¹, inv_nonneg.2 (Real.sqrt_nonneg r), rfl⟩

/-- A scatter of ones into zeros counts, at every entry, the updates landing there. -/
theorem scatter_ones_count {s si su : Shape} (d : ScatterDims s si su) {w : Nat} (zero : s.Idx → EReal) (idx : IVec si w)
    (ones : su.Idx → EReal) (h0 : ∀ i, zero i = Ideal.ofBits .f32 0x00000000#32)
    (hu : ∀ j, ones j = Ideal.ofBits .f32 0x3F800000#32) (i : s.Idx) :
    ∃ c : ℕ, Ideal.hostScatterAdd d zero idx ones i = ((c : ℝ) : EReal) := by
  classical
  refine ⟨(Finset.univ.filter fun j => d.resultIdx? j idx = some i).card, ?_⟩
  unfold Ideal.hostScatterAdd
  rw [h0, Ideal.ofBits_zero_f32, zero_add, Finset.sum_congr rfl fun j _ => (hu j).trans ofBits_one, ← coe_sum]
  simp

/-- THE FACT: the clamped degree to the power -1/2 is a nonnegative real, at every entry and for any start indices. -/
theorem isNNReal_degree_scale {s si su : Shape} (d : ScatterDims s si su) {w : Nat} (one zero : s.Idx → EReal) (idx : IVec si w)
    (ones : su.Idx → EReal) (p : s.Idx → EReal) (h1 : ∀ i, one i = Ideal.ofBits .f32 0x3F800000#32)
    (h0 : ∀ i, zero i = Ideal.ofBits .f32 0x00000000#32) (hu : ∀ j, ones j = Ideal.ofBits .f32 0x3F800000#32)
    (hp : ∀ i, p i = Ideal.ofBits .f32 0xBF000000#32) (i : s.Idx) :
    IsNNReal (Ideal.pow (max (one i) (Ideal.hostScatterAdd d zero idx ones i)) (p i)) := by
  obtain ⟨c, hc⟩ := scatter_ones_count d zero idx ones h0 hu i
  rw [h1, hp, hc, ofBits_one, coe_max]
  exact isNNReal_pow_neg_half (lt_of_lt_of_le one_pos (le_max_left _ _))

end Cert.LibDegreeScale

end
-- ==== Proof.RefFactor.lean ====
/-
  The node factor is a nonnegative real number.

  A node's degree is ones summed into zeros at the targets, a count; the factor is the inverse square root of the degree
  where that is positive and zero elsewhere, so it is a nonnegative real number at every node.
-/
import proofs.«164936_j60593398612125_2_alg».proof.Proof.RefIndex
import proofs.«164936_j60593398612125_2_alg».proof.Proof.LibDegreeScale

noncomputable section

open scoped BigOperators

namespace Cert.ReferenceIdeal.RefValue

open Cert.ReferenceIdeal Cert.ReferenceIdeal.Gen Idealize.ShloMosaic Idealize.ShloMosaic.ValueIdx
open Idealize.ShloMosaic.SegmentSum Idealize.ShloMosaic.RowScatter Idealize.ShloMosaic.GraphAggregate Idealize.ShloMosaic.NodeScale
open Cert.LibAggregateProject

/-- The host's inverse square root of an array, read at an index. -/
theorem hostRsqrt_apply {s : Shape} (x : FVec Ideal s .f32) (i : s.Idx) : Host.rsqrt x i = Ideal.rsqrt (x i) := rfl

/-- Ones summed into zeros at any start indices count, at every entry, the updates landing there (in the host's
    spelling; the shapes are variables). -/
theorem hostScatter_ones_count {s si su : Shape} (d : ScatterDims s si su) {w : Nat} (zero : FVec Ideal s .f32) (idx : IVec si w)
    (ones : FVec Ideal su .f32) (h0 : ∀ i, zero i = Ideal.ofBits .f32 0x00000000#32)
    (hu : ∀ j, ones j = Ideal.ofBits .f32 0x3F800000#32) (i : s.Idx) :
    ∃ c : ℕ, Host.scatterAdd d zero idx ones i = ((c : ℝ) : EReal) :=
  Cert.LibDegreeScale.scatter_ones_count d zero idx ones h0 hu i

/-- The guarded inverse square root of a count is a nonnegative real number. -/
theorem guarded_rsqrt_count_nn (k : ℕ) :
    IsNNReal (Scalar.select (FloatOps.cmpf (F := Ideal) .ogt (((k : ℝ) : EReal) : Ideal .f32) (Ideal.ofBits .f32 0x00000000#32))
      (Ideal.rsqrt ((k : ℝ) : EReal)) (Ideal.ofBits .f32 0x00000000#32)) := by
  rw [Ideal.cmpf_def, Cert.LibSymNorm.select_cmp_ogt, Ideal.ofBits_zero_f32]
  by_cases h : (0 : EReal) < ((k : ℝ) : EReal)
  · rw [if_pos h, Cert.LibBatchNorm.rsqrt_coe_pos (EReal.coe_pos.mp h)]
    exact ⟨_, inv_nonneg.2 (Real.sqrt_nonneg _), rfl⟩
  · rw [if_neg h]
    exact ⟨0, le_rfl, EReal.coe_zero.symm⟩

/-- The node factor is a nonnegative real number at every node. -/
theorem nodeFactor_nn (e : IVec S2x800000 32) (v : S50000.Idx) : IsNNReal (nodeFactor e v) := by
  have hz : ∀ i, (broadcastInDim S50000 ![] bcast_S_S50000 (constant (F := Ideal) S_ .f32 0x00000000#32)) i = Ideal.ofBits .f32 0x00000000#32 :=
    fun i => broadcastInDim_apply ![] bcast_S_S50000 _ i ix0 (fun a => a.elim0)
  have hz' : ∀ i, (broadcastInDim S50000 ![] bcast_S_S50000 (id (constant (F := Ideal) S_ .f32 0x00000000#32))) i = Ideal.ofBits .f32 0x00000000#32 :=
    fun i => broadcastInDim_apply ![] bcast_S_S50000 _ i ix0 (fun a => a.elim0)
  have hu : ∀ j, (broadcastInDim S850000 ![] bcast_S_S850000 (constant (F := Ideal) S_ .f32 0x3F800000#32)) j = Ideal.ofBits .f32 0x3F800000#32 :=
    fun j => broadcastInDim_apply ![] bcast_S_S850000 _ j ix0 (fun a => a.elim0)
  obtain ⟨k, hk⟩ := hostScatter_ones_count scatter_S50000_S850000x1_S850000_n_0_0_1 _ (asCol (dstIdx e)) _ hz hu v
  have hdeg : degree e v = ((k : ℝ) : EReal) := hk
  unfold nodeFactor
  rw [select_apply, cmpf_apply, hostRsqrt_apply, hdeg, hz v, hz' v]
  exact guarded_rsqrt_count_nn k

end Cert.ReferenceIdeal.RefValue

end
-- ==== Proof.RefRead.lean ====
/-
  The reference's convolutions read at an index.

  Each convolution's entry (n, c), a sum over the edges landing on n of the source's entry times factor(source) ·
  factor(target) plus the bias, is factor(n) times the sum of the source entries scaled by the source's factor, plus
  the bias: a node's own nonnegative real factor leaves its sum.
-/
import proofs.«164936_j60593398612125_2_alg».proof.Proof.RefFactor
import proofs.«164936_j60593398612125_2_alg».proof.Proof.LibAffine
import proofs.«164936_j60593398612125_2_alg».proof.Proof.LibPlainDot

noncomputable section

open scoped BigOperators

namespace Cert.ReferenceIdeal.RefValue

open Cert.ReferenceIdeal Cert.ReferenceIdeal.Gen Idealize.ShloMosaic Idealize.ShloMosaic.ValueIdx
open Idealize.ShloMosaic.SegmentSum Idealize.ShloMosaic.RowScatter Idealize.ShloMosaic.GraphAggregate Idealize.ShloMosaic.NodeScale
open Cert.LibAggregateProject

/-- The edge norm is the weight "source's factor times target's factor". -/
theorem edgeNorm_eq (e : IVec S2x800000 32) :
    edgeNorm e = edgeWeight rows_pos (nodeFactor e) (asCol (wrapIdx (srcIdx e))) (asCol (wrapIdx (dstIdx e))) := by
  funext i
  obtain ⟨k, rfl⟩ : ∃ k : Fin 850000, i = ix1 k := ⟨i 0, eq_ix1 i⟩
  unfold edgeNorm edgeWeight
  rw [mulf_apply]
  show Host.gather (elemGatherDims 50000 850000 gather_S50000_S850000x1_S850000_n_0_n_n_0_1_1_wf) (nodeFactor e) _ (ix1 k)
      * Host.gather (elemGatherDims 50000 850000 gather_S50000_S850000x1_S850000_n_0_n_n_0_1_1_wf) (nodeFactor e) _ (ix1 k) = _
  rw [elemGather_apply rows_pos, elemGather_apply rows_pos]

/-- A convolution of 256 columns at entry `(n, c)` is the node-scaled form. -/
theorem conv256_apply (P : FVec Ideal S50000x256 .f32) (e : IVec S2x800000 32)
    (b : FVec Ideal S256 .f32) (n : Fin 50000) (c : Fin 256) :
    conv256 P e b (ix2 n c)
      = scaledAt rows_pos (nodeFactor e) P (asCol (wrapIdx (srcIdx e))) (asCol (dstIdx e)) b n c := by
  unfold conv256
  rw [edgeNorm_eq]
  refine (aggregate_apply rows_pos scatter_S50000x256_S850000x1_S850000x256_1_0_0_1_wf
    gather_S50000x256_S850000x1_S850000x256_1_0_n_n_0_1_1256_wf bcast_S_S50000x256 bcast_S850000_S850000x1_0
    bcast_S850000x1_S850000x256_0_1 bcast_S256_S1x256_1 bcast_S1x256_S50000x256_0_1 P _ _ _ _ b n c).trans ?_
  rw [show (constant (F := Ideal) S_ .f32 0x00000000#32) ix0 = 0 from Ideal.ofBits_zero_f32]
  exact aggregateAt_eq_scaledAt rows_pos (nodeFactor e) (nodeFactor_nn e) P _ _ _ (wrapped_agrees e) b n c

/-- A convolution of 128 columns at entry `(n, c)` is the node-scaled form. -/
theorem conv128_apply (P : FVec Ideal S50000x128 .f32) (e : IVec S2x800000 32)
    (b : FVec Ideal S128 .f32) (n : Fin 50000) (c : Fin 128) :
    conv128 P e b (ix2 n c)
      = scaledAt rows_pos (nodeFactor e) P (asCol (wrapIdx (srcIdx e))) (asCol (dstIdx e)) b n c := by
  unfold conv128
  rw [edgeNorm_eq]
  refine (aggregate_apply rows_pos scatter_S50000x128_S850000x1_S850000x128_1_0_0_1_wf
    gather_S50000x128_S850000x1_S850000x128_1_0_n_n_0_1_1128_wf bcast_S_S50000x128 bcast_S850000_S850000x1_0
    bcast_S850000x1_S850000x128_0_1 bcast_S128_S1x128_1 bcast_S1x128_S50000x128_0_1 P _ _ _ _ b n c).trans ?_
  rw [show (constant (F := Ideal) S_ .f32 0x00000000#32) ix0 = 0 from Ideal.ofBits_zero_f32]
  exact aggregateAt_eq_scaledAt rows_pos (nodeFactor e) (nodeFactor_nn e) P _ _ _ (wrapped_agrees e) b n c

/-- The product x·W1 at an entry. -/
theorem xw1_apply (x : FVec Ideal S50000x512 .f32) (w1 : FVec Ideal S512x256 .f32)
    (r : Fin 50000) (k : Fin 256) :
    Host.dotGeneral dot_S50000x512_S512x256_S50000x256_1_0_0_1_n_n none x w1 (ix2 r k) = ∑ q : Fin 512, x (ix2 r q) * w1 (ix2 q k) := by
  have hlc : dot_S50000x512_S512x256_S50000x256_1_0_0_1_n_n.lhsContracting = [1] := rfl
  exact Cert.LibAffine.hostDot_ix2 dot_S50000x512_S512x256_S50000x256_1_0_0_1_n_n
    (Cert.LibPlainDot.contr_rank _ hlc) (Cert.LibPlainDot.contr_size _ hlc)
    (Cert.LibPlainDot.lhs_row _ rfl rfl) (Cert.LibPlainDot.lhs_col _ hlc)
    (Cert.LibPlainDot.rhs_row _ hlc rfl) (Cert.LibPlainDot.rhs_col _ rfl rfl rfl rfl) none x w1 r k

/-- The product hidden·W at an entry. -/
theorem hw_apply (h : FVec Ideal S50000x256 .f32) (w : FVec Ideal S256x128 .f32)
    (r : Fin 50000) (k : Fin 128) :
    Host.dotGeneral dot_S50000x256_S256x128_S50000x128_1_0_0_1_n_n none h w (ix2 r k) = ∑ q : Fin 256, h (ix2 r q) * w (ix2 q k) := by
  have hlc : dot_S50000x256_S256x128_S50000x128_1_0_0_1_n_n.lhsContracting = [1] := rfl
  exact Cert.LibAffine.hostDot_ix2 dot_S50000x256_S256x128_S50000x128_1_0_0_1_n_n
    (Cert.LibPlainDot.contr_rank _ hlc) (Cert.LibPlainDot.contr_size _ hlc)
    (Cert.LibPlainDot.lhs_row _ rfl rfl) (Cert.LibPlainDot.lhs_col _ hlc)
    (Cert.LibPlainDot.rhs_row _ hlc rfl) (Cert.LibPlainDot.rhs_col _ rfl rfl rfl rfl) none h w r k

/-- The hidden layer at an entry: the node-scaled form of x·W1 with bias b1, clipped at zero. -/
theorem hidden_apply (x : FVec Ideal S50000x512 .f32) (e : IVec S2x800000 32)
    (w1 : FVec Ideal S512x256 .f32) (b1 : FVec Ideal S256 .f32) (n : Fin 50000) (c : Fin 256) :
    hidden x e w1 b1 (ix2 n c)
      = max (scaledAt rows_pos (nodeFactor e) (Host.dotGeneral dot_S50000x512_S512x256_S50000x256_1_0_0_1_n_n none x w1)
          (asCol (wrapIdx (srcIdx e))) (asCol (dstIdx e)) b1 n c) (Ideal.ofBits .f32 0x00000000#32) := by
  unfold hidden
  rw [maximumf_apply, conv256_apply,
    broadcastInDim_apply ![] bcast_S_S50000x256 (constant (F := Ideal) S_ .f32 0x00000000#32) (ix2 n c) ix0 (fun a => a.elim0)]
  rfl

end Cert.ReferenceIdeal.RefValue

end
-- ==== Proof.Bridge.lean ====
/-
  The kernel's result and the reference's, entry by entry.

  Write D for the node factor, s(e) and t(e) for an edge's source and target, and Σ_n for the sum over the edges landing
  on node n. The reference's convolution of a table P with bias b has entry D(n) · Σ_n P(s(e), c) · D(s(e)) + b(c): a node's
  own factor leaves its sum. The kernel computes exactly that arrangement: its first call leaves (x·W1)(r, k) · D(r), the
  middle stretch sums the gathered rows, and its second call forms max(D(n) · that sum + b1, 0), which is the reference's
  hidden layer, multiplies it by the two heads' weights joined along the columns and scales the rows by D again; the
  tail sums the gathered rows, scales by D(n) and adds the joined bias. Column c of a product with the joined weights is
  column c of the product with the first head's weights, and column 128 + c that of the second's; so the first 128 columns
  of the kernel's final table are the reference's first head and the last 128 its second.
-/
import proofs.«164936_j60593398612125_2_alg».proof.Proof.KernelValue
import proofs.«164936_j60593398612125_2_alg».proof.Proof.RefRead
import Idealize.ShloMosaic.Lib.ValueLayout
import Idealize.ShloMosaic.Lib.Pipeline.Value

noncomputable section

open scoped BigOperators

namespace Cert.Bridge

open Idealize.ShloMosaic Idealize.ShloMosaic.ValueIdx
open Idealize.ShloMosaic.SegmentSum Idealize.ShloMosaic.GraphAggregate Idealize.ShloMosaic.NodeScale
open Cert.ReferenceIdeal.RefValue Cert.KernelIdeal.Whole

/-- The factor column at row `r` is the node factor of `r`. -/
theorem factor_read (e : IVec Cert.KernelIdeal.S2x800000 32) (r : Fin 50000) :
    factorCol e (ix2 r (0 : Fin 1)) = nodeFactor e (ix1 r) := by
  unfold factorCol
  exact Cert.LibDenseOps.shapeCast_a_a1_apply _ _ r 0

/-- The first call's table: the reference's x·W1, every row scaled by the node's factor. -/
theorem firstOut_apply (x : FVec Ideal Cert.KernelIdeal.S50000x512 .f32) (e : IVec Cert.KernelIdeal.S2x800000 32) (w1 : FVec Ideal Cert.KernelIdeal.S512x256 .f32)
    (r : Fin 50000) (k : Fin 256) :
    scaledProduct0 x (castW1 w1) (factorCol e) (ix2 r k)
      = Host.dotGeneral Cert.ReferenceIdeal.dot_S50000x512_S512x256_S50000x256_1_0_0_1_n_n none x w1 (ix2 r k) * nodeFactor e (ix1 r) := by
  show (∑ q : Fin 512, x (ix2 r q) * w1 (ix2 q k)) * factorCol e (ix2 r (0 : Fin 1)) = _
  rw [factor_read, xw1_apply]

/-- The middle stretch's table at an entry: the sum over the edges landing on the node of the scaled source rows. -/
theorem agg1_apply (x : FVec Ideal Cert.KernelIdeal.S50000x512 .f32) (e : IVec Cert.KernelIdeal.S2x800000 32) (w1 : FVec Ideal Cert.KernelIdeal.S512x256 .f32)
    (n : Fin 50000) (k : Fin 256) :
    gatherScatter (srcIdx e) (dstIdx e) (scaledProduct0 x (castW1 w1) (factorCol e)) (ix2 n k)
      = 0 + sourceSum rows_pos (nodeFactor e) (Host.dotGeneral Cert.ReferenceIdeal.dot_S50000x512_S512x256_S50000x256_1_0_0_1_n_n none x w1)
          (asCol (wrapIdx (srcIdx e))) (asCol (dstIdx e)) n k := by
  unfold gatherScatter
  exact scatterGather_scaled rows_pos Cert.KernelIdeal.Gen.scatter_S50000x256_S850000x1_S850000x256_1_0_0_1_wf
    Cert.KernelIdeal.Gen.gather_S50000x256_S850000x1_S850000x256_1_0_n_n_0_1_1256_wf Cert.KernelIdeal.Gen.bcast_S_S50000x256
    (nodeFactor e) _ _ (fun r j => firstOut_apply x e w1 r j) _ _ _ Ideal.ofBits_zero_f32 n k

/-- The second call's hidden layer is the reference's. -/
theorem hid_eq (x : FVec Ideal Cert.KernelIdeal.S50000x512 .f32) (e : IVec Cert.KernelIdeal.S2x800000 32) (w1 : FVec Ideal Cert.KernelIdeal.S512x256 .f32) (b1 : FVec Ideal Cert.KernelIdeal.S256 .f32) (n : Fin 50000) (k : Fin 256) :
    hiddenAt (gatherScatter (srcIdx e) (dstIdx e) (scaledProduct0 x (castW1 w1) (factorCol e)))
        (factorCol e) (shapeCast Cert.KernelIdeal.S1x256 b1 Cert.KernelIdeal.Gen.shapeCasts_S256_S1x256) n k
      = hidden x e w1 b1 (ix2 n k) := by
  unfold hiddenAt
  rw [factor_read, agg1_apply, shapeCast_a_1a_apply b1 _ (0 : Fin 1) k, hidden_apply]
  rfl

/-- The joined product: hidden times the two heads' weights side by side. -/
def catProduct (x : FVec Ideal Cert.KernelIdeal.S50000x512 .f32) (e : IVec Cert.KernelIdeal.S2x800000 32) (w1 : FVec Ideal Cert.KernelIdeal.S512x256 .f32) (b1 : FVec Ideal Cert.KernelIdeal.S256 .f32) (w4 w6 : FVec Ideal Cert.KernelIdeal.S256x128 .f32) : FVec Ideal Cert.KernelIdeal.S50000x256 .f32 :=
  fun i => ∑ j : Fin 256, hidden x e w1 b1 (ix2 (i 0) j) * wCat w4 w6 (ix2 j (i 1))

/-- The second call's table: the joined product, every row scaled by the node's factor. -/
theorem secondOut_apply (x : FVec Ideal Cert.KernelIdeal.S50000x512 .f32) (e : IVec Cert.KernelIdeal.S2x800000 32) (w1 : FVec Ideal Cert.KernelIdeal.S512x256 .f32) (b1 : FVec Ideal Cert.KernelIdeal.S256 .f32) (w4 w6 : FVec Ideal Cert.KernelIdeal.S256x128 .f32) (r : Fin 50000) (k : Fin 256) :
    secondOut x e w1 b1 w4 w6 (ix2 r k) = catProduct x e w1 b1 w4 w6 (ix2 r k) * nodeFactor e (ix1 r) := by
  show (∑ j : Fin 256, hiddenAt _ (factorCol e) _ r j * wCat w4 w6 (ix2 j k)) * factorCol e (ix2 r (0 : Fin 1)) = _
  rw [factor_read]
  refine congrArg (· * nodeFactor e (ix1 r)) ?_
  refine Finset.sum_congr rfl fun j _ => ?_
  rw [hid_eq]

/-- The tail's aggregated table at an entry: the sum over the edges landing on the node of the scaled source rows of the
    joined product. -/
theorem agg2_apply (x : FVec Ideal Cert.KernelIdeal.S50000x512 .f32) (e : IVec Cert.KernelIdeal.S2x800000 32) (w1 : FVec Ideal Cert.KernelIdeal.S512x256 .f32) (b1 : FVec Ideal Cert.KernelIdeal.S256 .f32) (w4 w6 : FVec Ideal Cert.KernelIdeal.S256x128 .f32)
    (n : Fin 50000) (k : Fin 256) :
    gatherScatter (srcIdx e) (dstIdx e) (secondOut x e w1 b1 w4 w6) (ix2 n k)
      = 0 + sourceSum rows_pos (nodeFactor e) (catProduct x e w1 b1 w4 w6) (asCol (wrapIdx (srcIdx e))) (asCol (dstIdx e)) n k := by
  unfold gatherScatter
  exact scatterGather_scaled rows_pos Cert.KernelIdeal.Gen.scatter_S50000x256_S850000x1_S850000x256_1_0_0_1_wf
    Cert.KernelIdeal.Gen.gather_S50000x256_S850000x1_S850000x256_1_0_n_n_0_1_1256_wf Cert.KernelIdeal.Gen.bcast_S_S50000x256
    (nodeFactor e) _ _ (fun r j => secondOut_apply x e w1 b1 w4 w6 r j) _ _ _ Ideal.ofBits_zero_f32 n k

/-- The final table at an entry: the node-scaled form of the joined product with the joined bias. -/
theorem finalTable_apply (x : FVec Ideal Cert.KernelIdeal.S50000x512 .f32) (e : IVec Cert.KernelIdeal.S2x800000 32) (w1 : FVec Ideal Cert.KernelIdeal.S512x256 .f32) (b1 : FVec Ideal Cert.KernelIdeal.S256 .f32) (w4 : FVec Ideal Cert.KernelIdeal.S256x128 .f32) (b5 : FVec Ideal Cert.KernelIdeal.S128 .f32) (w6 : FVec Ideal Cert.KernelIdeal.S256x128 .f32) (b7 : FVec Ideal Cert.KernelIdeal.S128 .f32) (n : Fin 50000) (k : Fin 256) :
    finalTable x e w1 b1 w4 b5 w6 b7 (ix2 n k)
      = scaledAt rows_pos (nodeFactor e) (catProduct x e w1 b1 w4 w6) (asCol (wrapIdx (srcIdx e))) (asCol (dstIdx e)) (bCat b5 b7) n k := by
  unfold finalTable tailOut
  rw [addf_apply, mulf_apply,
    spread_bias_apply Cert.KernelIdeal.Gen.bcast_S256_S1x256_1 Cert.KernelIdeal.Gen.bcast_S1x256_S50000x256_0_1 (bCat b5 b7) n k,
    broadcastInDim_apply ![0, 1] Cert.KernelIdeal.Gen.bcast_S50000x1_S50000x256_0_1 (factorCol e) (ix2 n k) (ix2 n (0 : Fin 1)) (fun a => by
      match a with
      | ⟨0, _⟩ => show n.val = if (50000 : Nat) = 1 then 0 else n.val; rw [if_neg (by decide)]
      | ⟨1, _⟩ => show 0 = if (1 : Nat) = 1 then 0 else k.val; rw [if_pos rfl]),
    factor_read, agg2_apply]
  rfl

/-! ## The joins read at an index -/

theorem wCat_left (w4 w6 : FVec Ideal Cert.KernelIdeal.S256x128 .f32) (j : Fin 256) (c : Fin 128) (c' : Fin 256) (hc : c'.val = c.val) :
    wCat w4 w6 (ix2 j c') = w4 (ix2 j c) := by
  unfold wCat
  exact concatenate_pair_apply_left (1 : Fin 2) w4 w6 Cert.KernelIdeal.Gen.concatenates_S256x128_S256x128_S256x256_d1 (ix2 j c') rfl (ix2 j c)
    (fun b => by
      match b with
      | ⟨0, _⟩ => rfl
      | ⟨1, _⟩ => exact hc.symm)

theorem wCat_right (w4 w6 : FVec Ideal Cert.KernelIdeal.S256x128 .f32) (j : Fin 256) (c : Fin 128) (c' : Fin 256) (hc : c'.val = 128 + c.val) :
    wCat w4 w6 (ix2 j c') = w6 (ix2 j c) := by
  unfold wCat
  exact concatenate_pair_apply_right (1 : Fin 2) w4 w6 Cert.KernelIdeal.Gen.concatenates_S256x128_S256x128_S256x256_d1 (ix2 j c') rfl rfl (ix2 j c)
    (fun b hb => by
      match b with
      | ⟨0, _⟩ => rfl
      | ⟨1, _⟩ => exact absurd rfl hb)
    (by show c.val + 128 = c'.val; omega)

theorem bCat_left (b5 b7 : FVec Ideal Cert.KernelIdeal.S128 .f32) (c : Fin 128) (c' : Fin 256) (hc : c'.val = c.val) :
    bCat b5 b7 (ix1 c') = b5 (ix1 c) := by
  unfold bCat
  exact concatenate_pair_apply_left (0 : Fin 1) b5 b7 Cert.KernelIdeal.Gen.concatenates_S128_S128_S256_d0 (ix1 c') rfl (ix1 c)
    (fun b => by
      match b with
      | ⟨0, _⟩ => exact hc.symm)

theorem bCat_right (b5 b7 : FVec Ideal Cert.KernelIdeal.S128 .f32) (c : Fin 128) (c' : Fin 256) (hc : c'.val = 128 + c.val) :
    bCat b5 b7 (ix1 c') = b7 (ix1 c) := by
  unfold bCat
  exact concatenate_pair_apply_right (0 : Fin 1) b5 b7 Cert.KernelIdeal.Gen.concatenates_S128_S128_S256_d0 (ix1 c') rfl rfl (ix1 c)
    (fun b hb => by
      match b with
      | ⟨0, _⟩ => exact absurd rfl hb)
    (by show c.val + 128 = c'.val; omega)

/-! ## The two heads -/

/-- The first 128 columns of the kernel's final table are the reference's first head. -/
theorem headCut_eq (x : FVec Ideal Cert.KernelIdeal.S50000x512 .f32) (e : IVec Cert.KernelIdeal.S2x800000 32) (w1 : FVec Ideal Cert.KernelIdeal.S512x256 .f32) (b1 : FVec Ideal Cert.KernelIdeal.S256 .f32) (w4 : FVec Ideal Cert.KernelIdeal.S256x128 .f32) (b5 : FVec Ideal Cert.KernelIdeal.S128 .f32) (w6 : FVec Ideal Cert.KernelIdeal.S256x128 .f32) (b7 : FVec Ideal Cert.KernelIdeal.S128 .f32) :
    headCut (finalTable x e w1 b1 w4 b5 w6 b7) = head x e w1 b1 w4 b5 := by
  funext i
  obtain ⟨n, c, rfl⟩ : ∃ (n : Fin 50000) (c : Fin 128), i = ix2 n c := ⟨i 0, i 1, eq_ix2 i⟩
  have hc : c.val < 128 := c.isLt
  unfold headCut
  have hlt : c.val < 256 := by omega
  rw [slice2_axis1_apply (n0 := 50000) (n1 := 256) (m := 128) 0 (finalTable x e w1 b1 w4 b5 w6 b7)
      Cert.KernelIdeal.Gen.slices_S50000x256_S50000x128_0_0 n c ⟨c.val, hlt⟩ (by simp),
    finalTable_apply,
    scaledAt_congr rows_pos (nodeFactor e) (catProduct x e w1 b1 w4 w6)
      (Host.dotGeneral Cert.ReferenceIdeal.dot_S50000x256_S256x128_S50000x128_1_0_0_1_n_n none (hidden x e w1 b1) w4)
      _ _ (bCat b5 b7) b5 n ⟨c.val, hlt⟩ c
      (fun r => by
        show (∑ j : Fin 256, hidden x e w1 b1 (ix2 r j) * wCat w4 w6 (ix2 j ⟨c.val, hlt⟩)) = _
        rw [hw_apply]
        exact Finset.sum_congr rfl fun j _ => by rw [wCat_left w4 w6 j c ⟨c.val, hlt⟩ rfl])
      (bCat_left b5 b7 c ⟨c.val, hlt⟩ rfl)]
  unfold head
  rw [conv128_apply]

/-- The last 128 columns of the kernel's final table are the reference's second head. -/
theorem tailCut_eq (x : FVec Ideal Cert.KernelIdeal.S50000x512 .f32) (e : IVec Cert.KernelIdeal.S2x800000 32) (w1 : FVec Ideal Cert.KernelIdeal.S512x256 .f32) (b1 : FVec Ideal Cert.KernelIdeal.S256 .f32) (w4 : FVec Ideal Cert.KernelIdeal.S256x128 .f32) (b5 : FVec Ideal Cert.KernelIdeal.S128 .f32) (w6 : FVec Ideal Cert.KernelIdeal.S256x128 .f32) (b7 : FVec Ideal Cert.KernelIdeal.S128 .f32) :
    tailCut (finalTable x e w1 b1 w4 b5 w6 b7) = head x e w1 b1 w6 b7 := by
  funext i
  obtain ⟨n, c, rfl⟩ : ∃ (n : Fin 50000) (c : Fin 128), i = ix2 n c := ⟨i 0, i 1, eq_ix2 i⟩
  have hc : c.val < 128 := c.isLt
  unfold tailCut
  have hlt : 128 + c.val < 256 := by omega
  rw [slice2_axis1_apply (n0 := 50000) (n1 := 256) (m := 128) 128 (finalTable x e w1 b1 w4 b5 w6 b7)
      Cert.KernelIdeal.Gen.slices_S50000x256_S50000x128_0_128 n c ⟨128 + c.val, hlt⟩ rfl,
    finalTable_apply,
    scaledAt_congr rows_pos (nodeFactor e) (catProduct x e w1 b1 w4 w6)
      (Host.dotGeneral Cert.ReferenceIdeal.dot_S50000x256_S256x128_S50000x128_1_0_0_1_n_n none (hidden x e w1 b1) w6)
      _ _ (bCat b5 b7) b7 n ⟨128 + c.val, hlt⟩ c
      (fun r => by
        show (∑ j : Fin 256, hidden x e w1 b1 (ix2 r j) * wCat w4 w6 (ix2 j ⟨128 + c.val, hlt⟩)) = _
        rw [hw_apply]
        exact Finset.sum_congr rfl fun j _ => by rw [wCat_right w4 w6 j c ⟨128 + c.val, hlt⟩ rfl])
      (bCat_right b5 b7 c ⟨128 + c.val, hlt⟩ rfl)]
  unfold head
  rw [conv128_apply]

end Cert.Bridge

end
-- ==== Proof.lean ====
/-
  The certificate: a two-layer graph convolution computed by two pallas_calls against its plain reference.

  The three frames: the two kernel programs run to the end without a fault and give their arguments back (the
  generated frames over the program's seven segments); the reference, a straight line of host operations, does too
  (its run, with the result dropped). The idealization rewrote nothing, so there is nothing to preserve. The value claim:
  from memories that agree on the arguments both idealized programs end with the same result, the two heads of the
  second layer stacked — the kernel's run read back through its segments (KernelValue), the reference's result term
  named piece by piece (RefTerms), and the two met entry by entry (Bridge): a node's own nonnegative real factor leaves
  its sum over incoming edges, and a column of a product with joined weights is a column of the product with one of them.
-/
import proofs.«164936_j60593398612125_2_alg».proof.Defs
import proofs.«164936_j60593398612125_2_alg».proof.Proof.Gen.Kernel
import proofs.«164936_j60593398612125_2_alg».proof.Proof.Gen.Kernel.Frame
import proofs.«164936_j60593398612125_2_alg».proof.Proof.Gen.KernelIdeal
import proofs.«164936_j60593398612125_2_alg».proof.Proof.Gen.KernelIdeal.Frame
import proofs.«164936_j60593398612125_2_alg».proof.Proof.Gen.ReferenceIdeal
import proofs.«164936_j60593398612125_2_alg».proof.Proof.Gen.Pre_finite_inputs
import proofs.«164936_j60593398612125_2_alg».proof.Proof.RefRunPatched
import proofs.«164936_j60593398612125_2_alg».proof.Proof.RefResult
import proofs.«164936_j60593398612125_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the reference's two heads, stacked, of arguments that agree. -/
theorem algebraic : Cert.algebraic_KernelIdeal_ReferenceIdeal := by
  intro m ρ m' ρ' _ hagree
  refine ⟨fun c => Cert.ReferenceIdeal.RefValue.stack
      (Cert.ReferenceIdeal.RefValue.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (Cert.ReferenceIdeal.RefValue.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · refine (θ_run Cert.KernelIdeal.defs _ _).mono (fun r h c => ⟨(h c).1.trans ?_, (h c).2⟩) (Cert.KernelIdeal.Whole.run_named m ρ)
    rw [Cert.KernelIdeal.Whole.result_eq, Cert.Bridge.headCut_eq, Cert.Bridge.tailCut_eq]
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
